-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024x64 : Shape := ⟨3, ![2048, 1024, 64]⟩
abbrev S2048x1024 : Shape := ⟨2, ![2048, 1024]⟩
abbrev S2048 : Shape := ⟨1, ![2048]⟩
abbrev S64x32 : Shape := ⟨2, ![64, 32]⟩
abbrev S32 : Shape := ⟨1, ![32]⟩
abbrev S32x32 : Shape := ⟨2, ![32, 32]⟩
abbrev S2x32x32 : Shape := ⟨3, ![2, 32, 32]⟩
abbrev S2x32 : Shape := ⟨2, ![2, 32]⟩
abbrev S32x1 : Shape := ⟨2, ![32, 1]⟩
abbrev S1 : Shape := ⟨1, ![1]⟩
abbrev S1000x1024 : Shape := ⟨2, ![1000, 1024]⟩
abbrev S_ : Shape := ⟨0, ![]⟩

class Facts : Prop where
  bcast_S_S2048x1024x64 : S_.BroadcastsInDim S2048x1024x64 (![] : Fin 0 → Fin S2048x1024x64.rank)
  reducesTo_S2048x1024x64_S_d0_1_2 : S2048x1024x64.ReducesTo [0, 1, 2] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S2x32x32 : S_.BroadcastsInDim S2x32x32 (![] : Fin 0 → Fin S2x32x32.rank)
  reducesTo_S2x32x32_S_d0_1_2 : S2x32x32.ReducesTo [0, 1, 2] S_
  bcast_S_S2x32 : S_.BroadcastsInDim S2x32 (![] : Fin 0 → Fin S2x32.rank)
  reducesTo_S2x32_S_d0_1 : S2x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S1000x1024 : S_.BroadcastsInDim S1000x1024 (![] : Fin 0 → Fin S1000x1024.rank)
  reducesTo_S1000x1024_S_d0_1 : S1000x1024.ReducesTo [0, 1] S_

variable [Facts]

def fn_part3 {F : FTy → Type} [FloatOps F] (main_arg13 : FVec F S1000x1024 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S1000x1024 .f32 := Host.absf main_arg13
  let main_cst_20 : FVec F S_ .f32 := constant S_ .f32 0x7F800000#32
  let main_v55 : FVec F S1000x1024 .f32 := broadcastInDim S1000x1024 ![] bcast_S_S1000x1024 main_cst_20
  let main_v56 : IVec S1000x1024 1 := cmpf .olt main_v54 main_v55
  let main_c_21 : IVec S_ 1 := constantI S_ 1 1#1
  let main_v57 : IVec S_ 1 := (fun x v => Host.reduce IntOp.andi x v reducesTo_S1000x1024_S_d0_1 h_S_) main_v56 main_c_21
  let main_v58 : IVec S_ 1 := andi main_v53 main_v57
  main_v58

def fn_part2 {F : FTy → Type} [FloatOps F] (main_arg9 : FVec F S2x32x32 .f32) (main_arg10 : FVec F S2x32 .f32) (main_arg11 : FVec F S32x1 .f32) (main_arg12 : FVec F S1 .f32) (main_arg13 : FVec F S1000x1024 .f32) (main_v33 : IVec S_ 1) : IVec S_ 1 :=
  let main_v34 : FVec F S2x32x32 .f32 := Host.absf main_arg9
  let main_cst_12 : FVec F S_ .f32 := constant S_ .f32 0x7F800000#32
  let main_v35 : FVec F S2x32x32 .f32 := broadcastInDim S2x32x32 ![] bcast_S_S2x32x32 main_cst_12
  let main_v36 : IVec S2x32x32 1 := cmpf .olt main_v34 main_v35
  let main_c_13 : IVec S_ 1 := constantI S_ 1 1#1
  let main_v37 : IVec S_ 1 := (fun x v => Host.reduce IntOp.andi x v reducesTo_S2x32x32_S_d0_1_2 h_S_) main_v36 main_c_13
  let main_v38 : IVec S_ 1 := andi main_v33 main_v37
  let main_v39 : FVec F S2x32 .f32 := Host.absf main_arg10
  let main_cst_14 : FVec F S_ .f32 := constant S_ .f32 0x7F800000#32
  let main_v40 : FVec F S2x32 .f32 := broadcastInDim S2x32 ![] bcast_S_S2x32 main_cst_14
  let main_v41 : IVec S2x32 1 := cmpf .olt main_v39 main_v40
  let main_c_15 : IVec S_ 1 := constantI S_ 1 1#1
  let main_v42 : IVec S_ 1 := (fun x v => Host.reduce IntOp.andi x v reducesTo_S2x32_S_d0_1 h_S_) main_v41 main_c_15
  let main_v43 : IVec S_ 1 := andi main_v38 main_v42
  let main_v44 : FVec F S32x1 .f32 := Host.absf main_arg11
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg13 main_v48 main_v49 main_v50

def fn_part1 {F : FTy → Type} [FloatOps F] (main_arg6 : FVec F S32 .f32) (main_arg7 : FVec F S2x32x32 .f32) (main_arg8 : FVec F S2x32 .f32) (main_arg9 : FVec F S2x32x32 .f32) (main_arg10 : FVec F S2x32 .f32) (main_arg11 : FVec F S32x1 .f32) (main_arg12 : FVec F S1 .f32) (main_arg13 : FVec F S1000x1024 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S2x32x32 .f32 := Host.absf main_arg7
  let main_cst_8 : FVec F S_ .f32 := constant S_ .f32 0x7F800000#32
  let main_v25 : FVec F S2x32x32 .f32 := broadcastInDim S2x32x32 ![] bcast_S_S2x32x32 main_cst_8
  let main_v26 : IVec S2x32x32 1 := cmpf .olt main_v24 main_v25
  let main_c_9 : IVec S_ 1 := constantI S_ 1 1#1
  let main_v27 : IVec S_ 1 := (fun x v => Host.reduce IntOp.andi x v reducesTo_S2x32x32_S_d0_1_2 h_S_) main_v26 main_c_9
  let main_v28 : IVec S_ 1 := andi main_v23 main_v27
  let main_v29 : FVec F S2x32 .f32 := Host.absf main_arg8
  let main_cst_10 : FVec F S_ .f32 := constant S_ .f32 0x7F800000#32
  let main_v30 : FVec F S2x32 .f32 := broadcastInDim S2x32 ![] bcast_S_S2x32 main_cst_10
  let main_v31 : IVec S2x32 1 := cmpf .olt main_v29 main_v30
  let main_c_11 : IVec S_ 1 := constantI S_ 1 1#1
  let main_v32 : IVec S_ 1 := (fun x v => Host.reduce IntOp.andi x v reducesTo_S2x32_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S2048x1024x64 .f32) (main_arg1 : IVec S2048x1024 32) (main_arg2 : IVec S2048 32) (main_arg3 : FVec F S64x32 .f32) (main_arg4 : FVec F S32 .f32) (main_arg5 : FVec F S32x32 .f32) (main_arg6 : FVec F S32 .f32) (main_arg7 : FVec F S2x32x32 .f32) (main_arg8 : FVec F S2x32 .f32) (main_arg9 : FVec F S2x32x32 .f32) (main_arg10 : FVec F S2x32 .f32) (main_arg11 : FVec F S32x1 .f32) (main_arg12 : FVec F S1 .f32) (main_arg13 : FVec F S1000x1024 .f32) : IVec S_ 1 :=
  let main_v0 : FVec F S2048x1024x64 .f32 := Host.absf main_arg0
  let main_cst : FVec F S_ .f32 := constant S_ .f32 0x7F800000#32
  let main_v1 : FVec F S2048x1024x64 .f32 := broadcastInDim S2048x1024x64 ![] bcast_S_S2048x1024x64 main_cst
  let main_v2 : IVec S2048x1024x64 1 := cmpf .olt main_v0 main_v1
  let main_c : IVec S_ 1 := constantI S_ 1 1#1
  let main_v3 : IVec S_ 1 := (fun x v => Host.reduce IntOp.andi x v reducesTo_S2048x1024x64_S_d0_1_2 h_S_) main_v2 main_c
  let main_v4 : FVec F S64x32 .f32 := Host.absf main_arg3
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_arg13 main_v13 main_v16
-- ==== Kernel.lean ====
abbrev S2048x1024x64 : Shape := ⟨3, ![2048, 1024, 64]⟩
abbrev S2048x1024 : Shape := ⟨2, ![2048, 1024]⟩
abbrev S2048 : Shape := ⟨1, ![2048]⟩
abbrev S64x32 : Shape := ⟨2, ![64, 32]⟩
abbrev S32 : Shape := ⟨1, ![32]⟩
abbrev S32x32 : Shape := ⟨2, ![32, 32]⟩
abbrev S2x32x32 : Shape := ⟨3, ![2, 32, 32]⟩
abbrev S2x32 : Shape := ⟨2, ![2, 32]⟩
abbrev S32x1 : Shape := ⟨2, ![32, 1]⟩
abbrev S1 : Shape := ⟨1, ![1]⟩
abbrev S1000x1024 : Shape := ⟨2, ![1000, 1024]⟩
abbrev S1x32x32 : Shape := ⟨3, ![1, 32, 32]⟩
abbrev S32x64 : Shape := ⟨2, ![32, 64]⟩
abbrev S1x32 : Shape := ⟨2, ![1, 32]⟩
abbrev S64 : Shape := ⟨1, ![64]⟩
abbrev S_ : Shape := ⟨0, ![]⟩
abbrev S2048x1 : Shape := ⟨2, ![2048, 1]⟩
abbrev S16x1024x64 : Shape := ⟨3, ![16, 1024, 64]⟩
abbrev S16x1024 : Shape := ⟨2, ![16, 1024]⟩
abbrev S16384x64 : Shape := ⟨2, ![16384, 64]⟩
abbrev S16384x32 : Shape := ⟨2, ![16384, 32]⟩
abbrev S16x1024x1 : Shape := ⟨3, ![16, 1024, 1]⟩
abbrev S16x1 : Shape := ⟨2, ![16, 1]⟩
abbrev S16x1x1 : Shape := ⟨3, ![16, 1, 1]⟩
abbrev S1x64 : Shape := ⟨2, ![1, 64]⟩
abbrev S16x1024x32 : Shape := ⟨3, ![16, 1024, 32]⟩
abbrev S16x32 : Shape := ⟨2, ![16, 32]⟩
abbrev S16x1x32 : Shape := ⟨3, ![16, 1, 32]⟩
abbrev S16384x1 : Shape := ⟨2, ![16384, 1]⟩
abbrev S1x1 : Shape := ⟨2, ![1, 1]⟩

abbrev nBuf : Space → Nat
  | .hbm => 34
  | .vmem => 18
  | .smem => 0
  | _ => 0

abbrev bufTy : (tb : Table) → Fin (tcTables nBuf tb) → BufTy
  | .hbm, ⟨0, _⟩ => ⟨S2048x1024x64, .f32⟩
  | .hbm, ⟨1, _⟩ => ⟨S2048x1024, .i32⟩
  | .hbm, ⟨2, _⟩ => ⟨S2048, .i32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S2x32x32, .f32⟩
  | .hbm, ⟨8, _⟩ => ⟨S2x32, .f32⟩
  | .hbm, ⟨9, _⟩ => ⟨S2x32x32, .f32⟩
  | .hbm, ⟨10, _⟩ => ⟨S2x32, .f32⟩
  | .hbm, ⟨11, _⟩ => ⟨S32x1, .f32⟩
  | .hbm, ⟨12, _⟩ => ⟨S1, .f32⟩
  | .hbm, ⟨13, _⟩ => ⟨S1000x1024, .f32⟩
  | .hbm, ⟨14, _⟩ => ⟨S1x32x32, .f32⟩
  | .hbm, ⟨15, _⟩ => ⟨S32x32, .f32⟩
  | .hbm, ⟨16, _⟩ => ⟨S1x32x32, .f32⟩
  | .hbm, ⟨17, _⟩ => ⟨S32x32, .f32⟩
  | .hbm, ⟨18, _⟩ => ⟨S32x64, .f32⟩
  | .hbm, ⟨19, _⟩ => ⟨S1x32, .f32⟩
  | .hbm, ⟨20, _⟩ => ⟨S32, .f32⟩
  | .hbm, ⟨21, _⟩ => ⟨S1x32, .f32⟩
  | .hbm, ⟨22, _⟩ => ⟨S32, .f32⟩
  | .hbm, ⟨23, _⟩ => ⟨S64, .f32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048x1, .i32⟩
  | .hbm, ⟨32, _⟩ => ⟨S2048x1024, .f32⟩
  | .hbm, ⟨33, _⟩ => ⟨S2048x1024, .f32⟩
  | .local _ .vmem, ⟨0, _⟩ => ⟨S16x1024x64, .f32⟩
  | .local _ .vmem, ⟨1, _⟩ => ⟨S16x1024x64, .f32⟩
  | .local _ .vmem, ⟨2, _⟩ => ⟨S16x1024, .i32⟩
  | .local _ .vmem, ⟨3, _⟩ => ⟨S16x1024, .i32⟩
  | .local _ .vmem, ⟨4, _⟩ => ⟨S16x1024, .f32⟩
  | .local _ .vmem, ⟨5, _⟩ => ⟨S16x1024, .f32⟩
  | .local _ .vmem, ⟨6, _⟩ => ⟨S64x32, .f32⟩
  | .local _ .vmem, ⟨7, _⟩ => ⟨S32, .f32⟩
  | .local _ .vmem, ⟨8, _⟩ => ⟨S32x32, .f32⟩
  | .local _ .vmem, ⟨9, _⟩ => ⟨S32, .f32⟩
  | .local _ .vmem, ⟨10, _⟩ => ⟨S2x32x32, .f32⟩
  | .local _ .vmem, ⟨11, _⟩ => ⟨S2x32, .f32⟩
  | .local _ .vmem, ⟨12, _⟩ => ⟨S32x64, .f32⟩
  | .local _ .vmem, ⟨13, _⟩ => ⟨S64, .f32⟩
  | .local _ .vmem, ⟨14, _⟩ => ⟨S32x1, .f32⟩
  | .local _ .vmem, ⟨15, _⟩ => ⟨S1, .f32⟩
  | .local _ .vmem, ⟨16, _⟩ => ⟨S16x1024, .f32⟩
  | .local _ .vmem, ⟨17, _⟩ => ⟨S16x1024, .f32⟩
  | _, _ => ⟨S2048x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2x32x32_S1x32x32_0_0_0 : S2x32x32.Slices ![0, 0, 0] S1x32x32
  shapeCasts_S1x32x32_S32x32 : S1x32x32.ShapeCasts S32x32
  slices_S2x32x32_S1x32x32_1_0_0 : S2x32x32.Slices ![1, 0, 0] S1x32x32
  concatenates_S32x32_S32x32_S32x64_d1 : Shape.Concatenates [S32x32, S32x32] S32x64 1
  slices_S2x32_S1x32_0_0 : S2x32.Slices ![0, 0] S1x32
  shapeCasts_S1x32_S32 : S1x32.ShapeCasts S32
  slices_S2x32_S1x32_1_0 : S2x32.Slices ![1, 0] S1x32
  concatenates_S32_S32_S64_d0 : Shape.Concatenates [S32, S32] S64 0
  bcast_S_S2048 : S_.BroadcastsInDim S2048 (![] : Fin 0 → Fin S2048.rank)
  bcast_S2048_S2048x1_0 : S2048.BroadcastsInDim S2048x1 (![0] : Fin 1 → Fin S2048x1.rank)
  inb_S16x1024x64_S16x1024x64_0_0_0 : ∀ a, (![0, 0, 0] : Fin 3 → Nat) a + S16x1024x64.size a ≤ S16x1024x64.size a
  h_S16x1024x64 : 0 < S16x1024x64.numel
  bitsLt_bf16_f32 : FTy.bits .bf16 < FTy.bits .f32
  shapeCasts_S16x1024x64_S16384x64 : S16x1024x64.ShapeCasts S16384x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S16384x32 : S1x32.Broadcasts S16384x32
  inb_S32x32_S32x32_0_0 : ∀ a, (![0, 0] : Fin 2 → Nat) a + S32x32.size a ≤ S32x32.size a
  h_S32x32 : 0 < S32x32.numel
  inb_S16x1024_S16x1024_0_0 : ∀ a, (![0, 0] : Fin 2 → Nat) a + S16x1024.size a ≤ S16x1024.size a
  h_S16x1024 : 0 < S16x1024.numel
  shapeCasts_S16x1024_S16x1024x1 : S16x1024.ShapeCasts S16x1024x1
  reduces_S16x1024x1_S16x1 : S16x1024x1.Reduces [1] S16x1
  shapeCasts_S16x1_S16x1x1 : S16x1.ShapeCasts S16x1x1
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S16384x64 : S1x64.Broadcasts S16384x64
  shapeCasts_S16384x64_S16x1024x64 : S16384x64.ShapeCasts S16x1024x64
  shapeCasts_S16384x32_S16x1024x32 : S16384x32.ShapeCasts S16x1024x32
  broadcasts_S16x1024x1_S16x1024x32 : S16x1024x1.Broadcasts S16x1024x32
  reduces_S16x1024x32_S16x32 : S16x1024x32.Reduces [1] S16x32
  shapeCasts_S16x32_S16x1x32 : S16x32.ShapeCasts S16x1x32
  broadcasts_S16x1x1_S16x1x32 : S16x1x1.Broadcasts S16x1x32
  shapeCasts_S16x1x32_S16x32 : S16x1x32.ShapeCasts S16x32
  inb_S2x32x32_S1x32x32_0_0_0 : ∀ a, (![0, 0, 0] : Fin 3 → Nat) a + S1x32x32.size a ≤ S2x32x32.size a
  h_S1x32x32 : 0 < S1x32x32.numel
  inb_S2x32_S1x32_0_0 : ∀ a, (![0, 0] : Fin 2 → Nat) a + S1x32.size a ≤ S2x32.size a
  h_S1x32 : 0 < S1x32.numel
  broadcasts_S1x32_S16x32 : S1x32.Broadcasts S16x32
  slices_S16x1024x64_o0_0_0_S16x1024x32 : S16x1024x64.Slices ![0, 0, 0] S16x1024x32
  broadcasts_S16x1x32_S16x1024x32 : S16x1x32.Broadcasts S16x1024x32
  inb_S2x32x32_S1x32x32_1_0_0 : ∀ a, (![1, 0, 0] : Fin 3 → Nat) a + S1x32x32.size a ≤ S2x32x32.size a
  inb_S2x32_S1x32_1_0 : ∀ a, (![1, 0] : Fin 2 → Nat) a + S1x32.size a ≤ S2x32.size a
  slices_S16x1024x64_o0_0_32_S16x1024x32 : S16x1024x64.Slices ![0, 0, 32] S16x1024x32
  shapeCasts_S16x1024x32_S16384x32 : S16x1024x32.ShapeCasts S16384x32
  inb_S32x1_S32x1_0_0 : ∀ a, (![0, 0] : Fin 2 → Nat) a + S32x1.size a ≤ S32x1.size a
  h_S32x1 : 0 < S32x1.numel
  inb_S1_S1_0 : ∀ a, (![0] : Fin 1 → Nat) a + S1.size a ≤ S1.size a
  h_S1 : 0 < S1.numel
  shapeCasts_S1_S1x1 : S1.ShapeCasts S1x1
  broadcasts_S1x1_S16384x1 : S1x1.Broadcasts S16384x1
  shapeCasts_S16384x1_S16x1024 : S16384x1.ShapeCasts S16x1024
  shapeCasts_S16x1024_S16x1024 : S16x1024.ShapeCasts S16x1024
  gather_S1000x1024_S2048x1_S2048x1024_1_0_n_n_0_1_11024_wf : GatherDims.WF S1000x1024 S2048x1 S2048x1024 [1] [0] [] [0] [] 1 ![1, 1024]
  dot_S16384x64_S64x32_S16384x32_1_0_0_1_n_n_wf : DotDims.WF S16384x64 S64x32 S16384x32 [1] [0] [0] [1] [] []
  dot_S16384x32_S32x32_S16384x32_1_0_0_1_n_n_wf : DotDims.WF S16384x32 S32x32 S16384x32 [1] [0] [0] [1] [] []
  dot_S16384x32_S32x64_S16384x64_1_0_0_1_n_n_wf : DotDims.WF S16384x32 S32x64 S16384x64 [1] [0] [0] [1] [] []
  dot_S16x32_S32x32_S16x32_1_0_0_1_n_n_wf : DotDims.WF S16x32 S32x32 S16x32 [1] [0] [0] [1] [] []
  dot_S16384x32_S32x1_S16384x1_1_0_0_1_n_n_wf : DotDims.WF S16384x32 S32x1 S16384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x64.size a ≤ S2048x1024x64.size a
  hwx0_0 : ∀ i : grid0.Coords, EltTy.bits .f32 = 32 ∨ (Rect.block (s := S2048x1024x64) S16x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S2048x1024.size a
  hwx0_1 : ∀ i : grid0.Coords, EltTy.bits .i32 = 32 ∨ (Rect.block (s := S2048x1024) S16x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1024.size a ≤ S2048x1024.size a
  hwx0_2 : ∀ i : grid0.Coords, EltTy.bits .f32 = 32 ∨ (Rect.block (s := S2048x1024) S16x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32.size a ≤ S32.size a
  hwx0_4 : ∀ i : grid0.Coords, EltTy.bits .f32 = 32 ∨ (Rect.block (s := S32) S32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x32x32.size a ≤ S2x32x32.size a
  hwx0_7 : ∀ i : grid0.Coords, EltTy.bits .f32 = 32 ∨ (Rect.block (s := S2x32x32) S2x32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x32.size a ≤ S2x32.size a
  hwx0_8 : ∀ i : grid0.Coords, EltTy.bits .f32 = 32 ∨ (Rect.block (s := S2x32) S2x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x64.size a ≤ S32x64.size a
  hwx0_9 : ∀ i : grid0.Coords, EltTy.bits .f32 = 32 ∨ (Rect.block (s := S32x64) S32x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S32x1.size a ≤ S32x1.size a
  hwx0_11 : ∀ i : grid0.Coords, EltTy.bits .f32 = 32 ∨ (Rect.block (s := S32x1) S32x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16x1024.size a ≤ S2048x1024.size a
  hwx0_13 : ∀ i : grid0.Coords, EltTy.bits .f32 = 32 ∨ (Rect.block (s := S2048x1024) S16x1024.size (cc0_transform_13 i) (hinb0_13 i)).WholeWords (EltTy.packing .f32)

variable [Facts₀]

def gather_S1000x1024_S2048x1_S2048x1024_1_0_n_n_0_1_11024 : GatherDims S1000x1024 S2048x1 S2048x1024 where
  offsetDims := [1]
  collapsedSliceDims := [0]
  operandBatchingDims := []
  startIndicesBatchingDims := []
  startIndexMap := [0]
  indexVectorDim := 1
  sliceSizes := ![1, 1024]
  wf := gather_S1000x1024_S2048x1_S2048x1024_1_0_n_n_0_1_11024_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def dot_S16384x32_S32x64_S16384x64_1_0_0_1_n_n : DotDims S16384x32 S32x64 S16384x64 where
  lhsContracting := [1]
  rhsContracting := [0]
  lhsNonContracting := [0]
  rhsNonContracting := [1]
  lhsBatch := []
  rhsBatch := []
  wf := dot_S16384x32_S32x64_S16384x64_1_0_0_1_n_n_wf
def dot_S16x32_S32x32_S16x32_1_0_0_1_n_n : DotDims S16x32 S32x32 S16x32 where
  lhsContracting := [1]
  rhsContracting := [0]
  lhsNonContracting := [0]
  rhsNonContracting := [1]
  lhsBatch := []
  rhsBatch := []
  wf := dot_S16x32_S32x32_S16x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

abbrev win0_0 : Pipeline.Window sig grid0 :=
  Pipeline.Window.ofSpec (Memref.whole main_arg0) S16x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S16x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S32x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S32x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v17) S16x1024.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S2048x1024x64 : Shape := ⟨3, ![2048, 1024, 64]⟩
abbrev S2048x1024 : Shape := ⟨2, ![2048, 1024]⟩
abbrev S2048 : Shape := ⟨1, ![2048]⟩
abbrev S64x32 : Shape := ⟨2, ![64, 32]⟩
abbrev S32 : Shape := ⟨1, ![32]⟩
abbrev S32x32 : Shape := ⟨2, ![32, 32]⟩
abbrev S2x32x32 : Shape := ⟨3, ![2, 32, 32]⟩
abbrev S2x32 : Shape := ⟨2, ![2, 32]⟩
abbrev S32x1 : Shape := ⟨2, ![32, 1]⟩
abbrev S1 : Shape := ⟨1, ![1]⟩
abbrev S1000x1024 : Shape := ⟨2, ![1000, 1024]⟩
abbrev S2048x1024x32 : Shape := ⟨3, ![2048, 1024, 32]⟩
abbrev S1x1x32 : Shape := ⟨3, ![1, 1, 32]⟩
abbrev S_ : Shape := ⟨0, ![]⟩
abbrev S2048x1024x1 : Shape := ⟨3, ![2048, 1024, 1]⟩
abbrev S2048x1 : Shape := ⟨2, ![2048, 1]⟩
abbrev S2048x1x1 : Shape := ⟨3, ![2048, 1, 1]⟩
abbrev S2048x32 : Shape := ⟨2, ![2048, 32]⟩
abbrev S2048x1x32 : Shape := ⟨3, ![2048, 1, 32]⟩
abbrev S1x32x32 : Shape := ⟨3, ![1, 32, 32]⟩
abbrev S1x32 : Shape := ⟨2, ![1, 32]⟩
abbrev S1x1x1 : Shape := ⟨3, ![1, 1, 1]⟩

abbrev nBuf : Space → Nat
  | .hbm => 109
  | .vmem => 0
  | .smem => 0
  | _ => 0

abbrev bufTy : (tb : Table) → Fin (tcTables nBuf tb) → BufTy
  | .hbm, ⟨0, _⟩ => ⟨S2048x1024x64, .f32⟩
  | .hbm, ⟨1, _⟩ => ⟨S2048x1024, .i32⟩
  | .hbm, ⟨2, _⟩ => ⟨S2048, .i32⟩
  | .hbm, ⟨3, _⟩ => ⟨S64x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S2x32x32, .f32⟩
  | .hbm, ⟨8, _⟩ => ⟨S2x32, .f32⟩
  | .hbm, ⟨9, _⟩ => ⟨S2x32x32, .f32⟩
  | .hbm, ⟨10, _⟩ => ⟨S2x32, .f32⟩
  | .hbm, ⟨11, _⟩ => ⟨S32x1, .f32⟩
  | .hbm, ⟨12, _⟩ => ⟨S1, .f32⟩
  | .hbm, ⟨13, _⟩ => ⟨S1000x1024, .f32⟩
  | .hbm, ⟨14, _⟩ => ⟨S2048x1024x32, .f32⟩
  | .hbm, ⟨15, _⟩ => ⟨S1x1x32, .f32⟩
  | .hbm, ⟨16, _⟩ => ⟨S2048x1024x32, .f32⟩
  | .hbm, ⟨17, _⟩ => ⟨S2048x1024x32, .f32⟩
  | .hbm, ⟨18, _⟩ => ⟨S_, .f32⟩
  | .hbm, ⟨19, _⟩ => ⟨S2048x1024x32, .f32⟩
  | .hbm, ⟨20, _⟩ => ⟨S2048x1024x32, .f32⟩
  | .hbm, ⟨21, _⟩ => ⟨S2048x1024x32, .f32⟩
  | .hbm, ⟨22, _⟩ => ⟨S1x1x32, .f32⟩
  | .hbm, ⟨23, _⟩ => ⟨S2048x1024x32, .f32⟩
  | .hbm, ⟨24, _⟩ => ⟨S2048x1024x32, .f32⟩
  | .hbm, ⟨25, _⟩ => ⟨S2048x1024, .f32⟩
  | .hbm, ⟨26, _⟩ => ⟨S2048x1024x1, .f32⟩
  | .hbm, ⟨27, _⟩ => ⟨S_, .f32⟩
  | .hbm, ⟨28, _⟩ => ⟨S2048x1, .f32⟩
  | .hbm, ⟨29, _⟩ => ⟨S2048x1x1, .f32⟩
  | .hbm, ⟨30, _⟩ => ⟨S_, .f32⟩
  | .hbm, ⟨31, _⟩ => ⟨S2048x1x1, .f32⟩
  | .hbm, ⟨32, _⟩ => ⟨S2048x1x1, .f32⟩
  | .hbm, ⟨33, _⟩ => ⟨S2048x1024x32, .f32⟩
  | .hbm, ⟨34, _⟩ => ⟨S2048x1024x32, .f32⟩
  | .hbm, ⟨35, _⟩ => ⟨S_, .f32⟩
  | .hbm, ⟨36, _⟩ => ⟨S2048x32, .f32⟩
  | .hbm, ⟨37, _⟩ => ⟨S2048x1x32, .f32⟩
  | .hbm, ⟨38, _⟩ => ⟨S2048x1x32, .f32⟩
  | .hbm, ⟨39, _⟩ => ⟨S2048x1x32, .f32⟩
  | .hbm, ⟨40, _⟩ => ⟨S1x32x32, .f32⟩
  | .hbm, ⟨41, _⟩ => ⟨S32x32, .f32⟩
  | .hbm, ⟨42, _⟩ => ⟨S2048x1x32, .f32⟩
  | .hbm, ⟨43, _⟩ => ⟨S1x32, .f32⟩
  | .hbm, ⟨44, _⟩ => ⟨S32, .f32⟩
  | .hbm, ⟨45, _⟩ => ⟨S1x1x32, .f32⟩
  | .hbm, ⟨46, _⟩ => ⟨S2048x1x32, .f32⟩
  | .hbm, ⟨47, _⟩ => ⟨S2048x1x32, .f32⟩
  | .hbm, ⟨48, _⟩ => ⟨S1x32x32, .f32⟩
  | .hbm, ⟨49, _⟩ => ⟨S32x32, .f32⟩
  | .hbm, ⟨50, _⟩ => ⟨S2048x1024x32, .f32⟩
  | .hbm, ⟨51, _⟩ => ⟨S1x32, .f32⟩
  | .hbm, ⟨52, _⟩ => ⟨S32, .f32⟩
  | .hbm, ⟨53, _⟩ => ⟨S1x1x32, .f32⟩
  | .hbm, ⟨54, _⟩ => ⟨S2048x1024x32, .f32⟩
  | .hbm, ⟨55, _⟩ => ⟨S2048x1024x32, .f32⟩
  | .hbm, ⟨56, _⟩ => ⟨S2048x1024x32, .f32⟩
  | .hbm, ⟨57, _⟩ => ⟨S2048x1024x32, .f32⟩
  | .hbm, ⟨58, _⟩ => ⟨S2048x1024x32, .f32⟩
  | .hbm, ⟨59, _⟩ => ⟨S2048x1024x32, .f32⟩
  | .hbm, ⟨60, _⟩ => ⟨S2048x1024x32, .f32⟩
  | .hbm, ⟨61, _⟩ => ⟨S2048x1024x32, .f32⟩
  | .hbm, ⟨62, _⟩ => ⟨S_, .f32⟩
  | .hbm, ⟨63, _⟩ => ⟨S2048x32, .f32⟩
  | .hbm, ⟨64, _⟩ => ⟨S2048x1x32, .f32⟩
  | .hbm, ⟨65, _⟩ => ⟨S2048x1x32, .f32⟩
  | .hbm, ⟨66, _⟩ => ⟨S2048x1x32, .f32⟩
  | .hbm, ⟨67, _⟩ => ⟨S1x32x32, .f32⟩
  | .hbm, ⟨68, _⟩ => ⟨S32x32, .f32⟩
  | .hbm, ⟨69, _⟩ => ⟨S2048x1x32, .f32⟩
  | .hbm, ⟨70, _⟩ => ⟨S1x32, .f32⟩
  | .hbm, ⟨71, _⟩ => ⟨S32, .f32⟩
  | .hbm, ⟨72, _⟩ => ⟨S1x1x32, .f32⟩
  | .hbm, ⟨73, _⟩ => ⟨S2048x1x32, .f32⟩
  | .hbm, ⟨74, _⟩ => ⟨S2048x1x32, .f32⟩
  | .hbm, ⟨75, _⟩ => ⟨S1x32x32, .f32⟩
  | .hbm, ⟨76, _⟩ => ⟨S32x32, .f32⟩
  | .hbm, ⟨77, _⟩ => ⟨S2048x1024x32, .f32⟩
  | .hbm, ⟨78, _⟩ => ⟨S1x32, .f32⟩
  | .hbm, ⟨79, _⟩ => ⟨S32, .f32⟩
  | .hbm, ⟨80, _⟩ => ⟨S1x1x32, .f32⟩
  | .hbm, ⟨81, _⟩ => ⟨S2048x1024x32, .f32⟩
  | .hbm, ⟨82, _⟩ => ⟨S2048x1024x32, .f32⟩
  | .hbm, ⟨83, _⟩ => ⟨S2048x1024x32, .f32⟩
  | .hbm, ⟨84, _⟩ => ⟨S2048x1024x32, .f32⟩
  | .hbm, ⟨85, _⟩ => ⟨S2048x1024x32, .f32⟩
  | .hbm, ⟨86, _⟩ => ⟨S2048x1024x32, .f32⟩
  | .hbm, ⟨87, _⟩ => ⟨S2048x1024x1, .f32⟩
  | .hbm, ⟨88, _⟩ => ⟨S1x1x1, .f32⟩
  | .hbm, ⟨89, _⟩ => ⟨S2048x1024x1, .f32⟩
  | .hbm, ⟨90, _⟩ => ⟨S2048x1024x1, .f32⟩
  | .hbm, ⟨91, _⟩ => ⟨S2048x1024, .f32⟩
  | .hbm, ⟨92, _⟩ => ⟨S_, .i32⟩
  | .hbm, ⟨93, _⟩ => ⟨S2048, .i32⟩
  | .hbm, ⟨94, _⟩ => ⟨S2048, .i1⟩
  | .hbm, ⟨95, _⟩ => ⟨S_, .i32⟩
  | .hbm, ⟨96, _⟩ => ⟨S2048, .i32⟩
  | .hbm, ⟨97, _⟩ => ⟨S2048, .i32⟩
  | .hbm, ⟨98, _⟩ => ⟨S2048, .i32⟩
  | .hbm, ⟨99, _⟩ => ⟨S2048x1, .i32⟩
  | .hbm, ⟨100, _⟩ => ⟨S2048x1024, .f32⟩
  | .hbm, ⟨101, _⟩ => ⟨S2048x1024, .f32⟩
  | .hbm, ⟨102, _⟩ => ⟨S_, .i32⟩
  | .hbm, ⟨103, _⟩ => ⟨S2048x1024, .i32⟩
  | .hbm, ⟨104, _⟩ => ⟨S2048x1024, .i1⟩
  | .hbm, ⟨105, _⟩ => ⟨S2048x1024, .i1⟩
  | .hbm, ⟨106, _⟩ => ⟨S_, .f32⟩
  | .hbm, ⟨107, _⟩ => ⟨S2048x1024, .f32⟩
  | .hbm, ⟨108, _⟩ => ⟨S2048x1024, .f32⟩
  | _, _ => ⟨S2048x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_1 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_2 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c : Ref sig .tc := ⟨.hbm, 92, rfl⟩
abbrev main_v72 : Ref sig .tc := ⟨.hbm, 93, rfl⟩
abbrev main_v73 : Ref sig .tc := ⟨.hbm, 94, rfl⟩
abbrev main_c_3 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_c_4 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_5 : Ref sig .tc := ⟨.hbm, 106, rfl⟩
abbrev main_call1_v0 : Ref sig .tc := ⟨.hbm, 107, rfl⟩
abbrev main_v83 : Ref sig .tc := ⟨.hbm, 108, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S2048x1024x32_0_1_2 : S1x1x32.BroadcastsInDim S2048x1024x32 (![0, 1, 2] : Fin 3 → Fin S2048x1024x32.rank)
  bcast_S_S2048x1024x32 : S_.BroadcastsInDim S2048x1024x32 (![] : Fin 0 → Fin S2048x1024x32.rank)
  bcast_S2048x1024_S2048x1024x1_0_1 : S2048x1024.BroadcastsInDim S2048x1024x1 (![0, 1] : Fin 2 → Fin S2048x1024x1.rank)
  reducesTo_S2048x1024x1_S2048x1_d1 : S2048x1024x1.ReducesTo [1] S2048x1
  h_S_ : 0 < S_.numel
  bcast_S2048x1_S2048x1x1_0_2 : S2048x1.BroadcastsInDim S2048x1x1 (![0, 2] : Fin 2 → Fin S2048x1x1.rank)
  bcast_S_S2048x1x1 : S_.BroadcastsInDim S2048x1x1 (![] : Fin 0 → Fin S2048x1x1.rank)
  bcast_S2048x1024x1_S2048x1024x32_0_1_2 : S2048x1024x1.BroadcastsInDim S2048x1024x32 (![0, 1, 2] : Fin 3 → Fin S2048x1024x32.rank)
  reducesTo_S2048x1024x32_S2048x32_d1 : S2048x1024x32.ReducesTo [1] S2048x32
  bcast_S2048x32_S2048x1x32_0_2 : S2048x32.BroadcastsInDim S2048x1x32 (![0, 2] : Fin 2 → Fin S2048x1x32.rank)
  bcast_S2048x1x1_S2048x1x32_0_1_2 : S2048x1x1.BroadcastsInDim S2048x1x32 (![0, 1, 2] : Fin 3 → Fin S2048x1x32.rank)
  slices_S2x32x32_S1x32x32_0_0_0 : S2x32x32.Slices ![0, 0, 0] S1x32x32
  shapeCasts_S1x32x32_S32x32 : S1x32x32.ShapeCasts S32x32
  slices_S2x32_S1x32_0_0 : S2x32.Slices ![0, 0] S1x32
  shapeCasts_S1x32_S32 : S1x32.ShapeCasts S32
  bcast_S1x1x32_S2048x1x32_0_1_2 : S1x1x32.BroadcastsInDim S2048x1x32 (![0, 1, 2] : Fin 3 → Fin S2048x1x32.rank)
  bcast_S2048x1x32_S2048x1024x32_0_1_2 : S2048x1x32.BroadcastsInDim S2048x1024x32 (![0, 1, 2] : Fin 3 → Fin S2048x1024x32.rank)
  slices_S2x32x32_S1x32x32_1_0_0 : S2x32x32.Slices ![1, 0, 0] S1x32x32
  slices_S2x32_S1x32_1_0 : S2x32.Slices ![1, 0] S1x32
  bcast_S1_S1x1x1_2 : S1.BroadcastsInDim S1x1x1 (![2] : Fin 1 → Fin S1x1x1.rank)
  bcast_S1x1x1_S2048x1024x1_0_1_2 : S1x1x1.BroadcastsInDim S2048x1024x1 (![0, 1, 2] : Fin 3 → Fin S2048x1024x1.rank)
  shapeCasts_S2048x1024x1_S2048x1024 : S2048x1024x1.ShapeCasts S2048x1024
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1024 : S_.BroadcastsInDim S2048x1024 (![] : Fin 0 → Fin S2048x1024.rank)
  dot_S2048x1024x64_S64x32_S2048x1024x32_2_0_01_1_n_n_wf : DotDims.WF S2048x1024x64 S64x32 S2048x1024x32 [2] [0] [0, 1] [1] [] []
  dot_S2048x1024x32_S32x32_S2048x1024x32_2_0_01_1_n_n_wf : DotDims.WF S2048x1024x32 S32x32 S2048x1024x32 [2] [0] [0, 1] [1] [] []
  dot_S2048x1x32_S32x32_S2048x1x32_2_0_01_1_n_n_wf : DotDims.WF S2048x1x32 S32x32 S2048x1x32 [2] [0] [0, 1] [1] [] []
  dot_S2048x1024x32_S32x1_S2048x1024x1_2_0_01_1_n_n_wf : DotDims.WF S2048x1024x32 S32x1 S2048x1024x1 [2] [0] [0, 1] [1] [] []
  gather_S1000x1024_S2048x1_S2048x1024_1_0_n_n_0_1_11024_wf : GatherDims.WF S1000x1024 S2048x1 S2048x1024 [1] [0] [] [0] [] 1 ![1, 1024]

variable [Facts₀]

def dot_S2048x1024x64_S64x32_S2048x1024x32_2_0_01_1_n_n : DotDims S2048x1024x64 S64x32 S2048x1024x32 where
  lhsContracting := [2]
  rhsContracting := [0]
  lhsNonContracting := [0, 1]
  rhsNonContracting := [1]
  lhsBatch := []
  rhsBatch := []
  wf := dot_S2048x1024x64_S64x32_S2048x1024x32_2_0_01_1_n_n_wf
def dot_S2048x1024x32_S32x32_S2048x1024x32_2_0_01_1_n_n : DotDims S2048x1024x32 S32x32 S2048x1024x32 where
  lhsContracting := [2]
  rhsContracting := [0]
  lhsNonContracting := [0, 1]
  rhsNonContracting := [1]
  lhsBatch := []
  rhsBatch := []
  wf := dot_S2048x1024x32_S32x32_S2048x1024x32_2_0_01_1_n_n_wf
def dot_S2048x1x32_S32x32_S2048x1x32_2_0_01_1_n_n : DotDims S2048x1x32 S32x32 S2048x1x32 where
  lhsContracting := [2]
  rhsContracting := [0]
  lhsNonContracting := [0, 1]
  rhsNonContracting := [1]
  lhsBatch := []
  rhsBatch := []
  wf := dot_S2048x1x32_S32x32_S2048x1x32_2_0_01_1_n_n_wf
def dot_S2048x1024x32_S32x1_S2048x1024x1_2_0_01_1_n_n : DotDims S2048x1024x32 S32x1 S2048x1024x1 where
  lhsContracting := [2]
  rhsContracting := [0]
  lhsNonContracting := [0, 1]
  rhsNonContracting := [1]
  lhsBatch := []
  rhsBatch := []
  wf := dot_S2048x1024x32_S32x1_S2048x1024x1_2_0_01_1_n_n_wf
def gather_S1000x1024_S2048x1_S2048x1024_1_0_n_n_0_1_11024 : GatherDims S1000x1024 S2048x1 S2048x1024 where
  offsetDims := [1]
  collapsedSliceDims := [0]
  operandBatchingDims := []
  startIndicesBatchingDims := []
  startIndexMap := [0]
  indexVectorDim := 1
  sliceSizes := ![1, 1024]
  wf := gather_S1000x1024_S2048x1_S2048x1024_1_0_n_n_0_1_11024_wf

class Facts : Prop extends Facts₀ where

variable [Facts]
-- ==== Proof.SetScore.lean ====
import Idealize.ShloMosaic.PureOps.Ideal

/-!
# The scores of one set of items

One batch row of the network is a set of 1024 items with 64 features each, a 0/1 word per item saying whether the
item is present, and one additive offset per item. Every item is embedded by two dense layers (the first rectified);
then twice the present items' embeddings are averaged (their sum over the count of present items plus a small
constant), the average is sent through a dense layer and multiplied into a tanh gate of each item's FIRST embedding,
and the product is added to the item's embedding. A last dense layer with one output, plus the item's offset, is the
item's score; an absent item scores a large negative constant.

Everything here is over the extended reals, index by index, with the weights as plain functions. The row's scores
depend on nothing outside the row, which is why a program that treats sixteen rows at a time and one that treats all
rows at once compute the same array.
-/

noncomputable section

namespace Cert.SetScore

open Idealize.ShloMosaic
open scoped BigOperators

/-- The presence word of an item as a number. -/
def present (w : BitVec 32) : EReal := ((w.toInt : ℝ) : EReal)

/-- First dense layer, rectified: `max (x · w1 + b1) 0`. -/
def hid (w1 : Fin 64 → Fin 32 → EReal) (b1 : Fin 32 → EReal) (x : Fin 64 → EReal) (j : Fin 32) : EReal :=
  max ((∑ k : Fin 64, x k * w1 k j) + b1 j) (Ideal.ofBits .f32 0x00000000#32)

/-- An item's embedding: the second dense layer on the first. -/
def emb (w1 : Fin 64 → Fin 32 → EReal) (b1 : Fin 32 → EReal) (w2 : Fin 32 → Fin 32 → EReal) (b2 : Fin 32 → EReal)
    (x : Fin 64 → EReal) (j : Fin 32) : EReal :=
  (∑ k : Fin 32, hid w1 b1 x k * w2 k j) + b2 j

/-- A layer's gate of an item: `tanh (z0 · wm + bm)` of the item's first embedding. -/
def gate (wm : Fin 32 → Fin 32 → EReal) (bm : Fin 32 → EReal) (z0 : Fin 32 → EReal) (j : Fin 32) : EReal :=
  Ideal.tanh ((∑ k : Fin 32, z0 k * wm k j) + bm j)

/-- The number of present items of the row, plus the small constant that keeps the quotient defined. -/
def count (mk : Fin 1024 → BitVec 32) : EReal :=
  (∑ n : Fin 1024, present (mk n)) + Ideal.ofBits .f32 0x322BCC77#32

/-- The average over the present items of the row, feature by feature. -/
def pooled (z : Fin 1024 → Fin 32 → EReal) (mk : Fin 1024 → BitVec 32) (k : Fin 32) : EReal :=
  Ideal.div (∑ n : Fin 1024, z n k * present (mk n)) (count mk)

/-- The dense layer applied to the row's average. -/
def proj (wp : Fin 32 → Fin 32 → EReal) (bp : Fin 32 → EReal) (zb : Fin 32 → EReal) (j : Fin 32) : EReal :=
  (∑ k : Fin 32, zb k * wp k j) + bp j

/-- One residual layer: every item's embedding plus the projected average times the item's gate. -/
def layer (wp : Fin 32 → Fin 32 → EReal) (bp : Fin 32 → EReal) (wm : Fin 32 → Fin 32 → EReal) (bm : Fin 32 → EReal)
    (z0 z : Fin 1024 → Fin 32 → EReal) (mk : Fin 1024 → BitVec 32) (n : Fin 1024) (j : Fin 32) : EReal :=
  z n j + proj wp bp (pooled z mk) j * gate wm bm (z0 n) j

/-- The last dense layer, one output. -/
def head (wh : Fin 32 → EReal) (bh : EReal) (z : Fin 32 → EReal) : EReal :=
  (∑ k : Fin 32, z k * wh k) + bh

/-- The scores of one row: two residual layers over the embeddings, the head, the offsets, and the large negative
    constant at absent items. -/
def rowOut (w1 : Fin 64 → Fin 32 → EReal) (b1 : Fin 32 → EReal) (w2 : Fin 32 → Fin 32 → EReal) (b2 : Fin 32 → EReal)
    (wp0 : Fin 32 → Fin 32 → EReal) (bp0 : Fin 32 → EReal) (wp1 : Fin 32 → Fin 32 → EReal) (bp1 : Fin 32 → EReal)
    (wm0 : Fin 32 → Fin 32 → EReal) (bm0 : Fin 32 → EReal) (wm1 : Fin 32 → Fin 32 → EReal) (bm1 : Fin 32 → EReal)
    (wh : Fin 32 → EReal) (bh : EReal)
    (x : Fin 1024 → Fin 64 → EReal) (mk : Fin 1024 → BitVec 32) (xg : Fin 1024 → EReal) (n : Fin 1024) : EReal :=
  Scalar.select (IntOp.cmpi .ne (mk n) 0#32)
    (head wh bh
        (layer wp1 bp1 wm1 bm1 (fun n => emb w1 b1 w2 b2 (x n))
          (layer wp0 bp0 wm0 bm0 (fun n => emb w1 b1 w2 b2 (x n)) (fun n => emb w1 b1 w2 b2 (x n)) mk) mk n)
      + xg n)
    (Ideal.ofBits .f32 0xCE6E6B28#32)

end Cert.SetScore

end
-- ==== Proof.ScoreArray.lean ====
import proofs.«135003_j33045478375777_2_alg».proof.Proof.SetScore
import Idealize.ShloMosaic.Lib.ValueIdx

/-!
# The array of all scores

The scores of all 2048 rows, as one function of the argument arrays and of the gathered offsets: entry `(b, n)` is
row `b`'s score at item `n`, computed from row `b` of the features, of the presence words and of the offsets, with
the two layers' weights read out of the stacked weight arrays.
-/

noncomputable section

namespace Cert.SetScore

open Idealize.ShloMosaic Idealize.ShloMosaic.ValueIdx

/-- Two rows' computations agree when their weights and data agree entry by entry. -/
theorem rowOut_ext {w1 w1' : Fin 64 → Fin 32 → EReal} {b1 b1' : Fin 32 → EReal} {w2 w2' : Fin 32 → Fin 32 → EReal}
    {b2 b2' : Fin 32 → EReal} {wp0 wp0' : Fin 32 → Fin 32 → EReal} {bp0 bp0' : Fin 32 → EReal}
    {wp1 wp1' : Fin 32 → Fin 32 → EReal} {bp1 bp1' : Fin 32 → EReal} {wm0 wm0' : Fin 32 → Fin 32 → EReal}
    {bm0 bm0' : Fin 32 → EReal} {wm1 wm1' : Fin 32 → Fin 32 → EReal} {bm1 bm1' : Fin 32 → EReal}
    {wh wh' : Fin 32 → EReal} {bh bh' : EReal} {x x' : Fin 1024 → Fin 64 → EReal} {mk mk' : Fin 1024 → BitVec 32}
    {xg xg' : Fin 1024 → EReal}
    (h1 : ∀ k j, w1 k j = w1' k j) (h2 : ∀ j, b1 j = b1' j) (h3 : ∀ k j, w2 k j = w2' k j) (h4 : ∀ j, b2 j = b2' j)
    (h5 : ∀ k j, wp0 k j = wp0' k j) (h6 : ∀ j, bp0 j = bp0' j) (h7 : ∀ k j, wp1 k j = wp1' k j) (h8 : ∀ j, bp1 j = bp1' j)
    (h9 : ∀ k j, wm0 k j = wm0' k j) (h10 : ∀ j, bm0 j = bm0' j) (h11 : ∀ k j, wm1 k j = wm1' k j) (h12 : ∀ j, bm1 j = bm1' j)
    (h13 : ∀ k, wh k = wh' k) (h14 : bh = bh') (h15 : ∀ n k, x n k = x' n k) (h16 : ∀ n, mk n = mk' n)
    (h17 : ∀ n, xg n = xg' n) (n : Fin 1024) :
    rowOut w1 b1 w2 b2 wp0 bp0 wp1 bp1 wm0 bm0 wm1 bm1 wh bh x mk xg n
      = rowOut w1' b1' w2' b2' wp0' bp0' wp1' bp1' wm0' bm0' wm1' bm1' wh' bh' x' mk' xg' n := by
  obtain rfl : w1 = w1' := funext fun k => funext fun j => h1 k j
  obtain rfl : b1 = b1' := funext h2
  obtain rfl : w2 = w2' := funext fun k => funext fun j => h3 k j
  obtain rfl : b2 = b2' := funext h4
  obtain rfl : wp0 = wp0' := funext fun k => funext fun j => h5 k j
  obtain rfl : bp0 = bp0' := funext h6
  obtain rfl : wp1 = wp1' := funext fun k => funext fun j => h7 k j
  obtain rfl : bp1 = bp1' := funext h8
  obtain rfl : wm0 = wm0' := funext fun k => funext fun j => h9 k j
  obtain rfl : bm0 = bm0' := funext h10
  obtain rfl : wm1 = wm1' := funext fun k => funext fun j => h11 k j
  obtain rfl : bm1 = bm1' := funext h12
  obtain rfl : wh = wh' := funext h13
  obtain rfl : bh = bh' := h14
  obtain rfl : x = x' := funext fun n => funext fun k => h15 n k
  obtain rfl : mk = mk' := funext h16
  obtain rfl : xg = xg' := funext h17
  rfl

/-- Row `b`'s score at item `n`, from the whole arrays. -/
def scoresAt (a0 : (⟨3, ![2048, 1024, 64]⟩ : Shape).Idx → EReal) (a1 : (⟨2, ![2048, 1024]⟩ : Shape).Idx → BitVec 32)
    (a3 : (⟨2, ![64, 32]⟩ : Shape).Idx → EReal) (a4 : (⟨1, ![32]⟩ : Shape).Idx → EReal)
    (a5 : (⟨2, ![32, 32]⟩ : Shape).Idx → EReal) (a6 : (⟨1, ![32]⟩ : Shape).Idx → EReal)
    (a7 : (⟨3, ![2, 32, 32]⟩ : Shape).Idx → EReal) (a8 : (⟨2, ![2, 32]⟩ : Shape).Idx → EReal)
    (a9 : (⟨3, ![2, 32, 32]⟩ : Shape).Idx → EReal) (a10 : (⟨2, ![2, 32]⟩ : Shape).Idx → EReal)
    (a11 : (⟨2, ![32, 1]⟩ : Shape).Idx → EReal) (a12 : (⟨1, ![1]⟩ : Shape).Idx → EReal)
    (xg : (⟨2, ![2048, 1024]⟩ : Shape).Idx → EReal) (b : Fin 2048) (n : Fin 1024) : EReal :=
  rowOut (fun k j => a3 (ix2 k j)) (fun j => a4 (ix1 j)) (fun k j => a5 (ix2 k j)) (fun j => a6 (ix1 j))
    (fun k j => a7 (ix3 (0 : Fin 2) k j)) (fun j => a8 (ix2 (0 : Fin 2) j))
    (fun k j => a7 (ix3 (1 : Fin 2) k j)) (fun j => a8 (ix2 (1 : Fin 2) j))
    (fun k j => a9 (ix3 (0 : Fin 2) k j)) (fun j => a10 (ix2 (0 : Fin 2) j))
    (fun k j => a9 (ix3 (1 : Fin 2) k j)) (fun j => a10 (ix2 (1 : Fin 2) j))
    (fun k => a11 (ix2 k (0 : Fin 1))) (a12 (ix1 (0 : Fin 1)))
    (fun n' k => a0 (ix3 b n' k)) (fun n' => a1 (ix2 b n')) (fun n' => xg (ix2 b n')) n

/-- The array of all scores. -/
def scores (a0 : (⟨3, ![2048, 1024, 64]⟩ : Shape).Idx → EReal) (a1 : (⟨2, ![2048, 1024]⟩ : Shape).Idx → BitVec 32)
    (a3 : (⟨2, ![64, 32]⟩ : Shape).Idx → EReal) (a4 : (⟨1, ![32]⟩ : Shape).Idx → EReal)
    (a5 : (⟨2, ![32, 32]⟩ : Shape).Idx → EReal) (a6 : (⟨1, ![32]⟩ : Shape).Idx → EReal)
    (a7 : (⟨3, ![2, 32, 32]⟩ : Shape).Idx → EReal) (a8 : (⟨2, ![2, 32]⟩ : Shape).Idx → EReal)
    (a9 : (⟨3, ![2, 32, 32]⟩ : Shape).Idx → EReal) (a10 : (⟨2, ![2, 32]⟩ : Shape).Idx → EReal)
    (a11 : (⟨2, ![32, 1]⟩ : Shape).Idx → EReal) (a12 : (⟨1, ![1]⟩ : Shape).Idx → EReal)
    (xg : (⟨2, ![2048, 1024]⟩ : Shape).Idx → EReal) : (⟨2, ![2048, 1024]⟩ : Shape).Idx → EReal :=
  fun i => scoresAt a0 a1 a3 a4 a5 a6 a7 a8 a9 a10 a11 a12 xg ⟨(i 0).val, (i 0).isLt⟩ ⟨(i 1).val, (i 1).isLt⟩

theorem scores_apply (a0 : (⟨3, ![2048, 1024, 64]⟩ : Shape).Idx → EReal) (a1 : (⟨2, ![2048, 1024]⟩ : Shape).Idx → BitVec 32)
    (a3 : (⟨2, ![64, 32]⟩ : Shape).Idx → EReal) (a4 : (⟨1, ![32]⟩ : Shape).Idx → EReal)
    (a5 : (⟨2, ![32, 32]⟩ : Shape).Idx → EReal) (a6 : (⟨1, ![32]⟩ : Shape).Idx → EReal)
    (a7 : (⟨3, ![2, 32, 32]⟩ : Shape).Idx → EReal) (a8 : (⟨2, ![2, 32]⟩ : Shape).Idx → EReal)
    (a9 : (⟨3, ![2, 32, 32]⟩ : Shape).Idx → EReal) (a10 : (⟨2, ![2, 32]⟩ : Shape).Idx → EReal)
    (a11 : (⟨2, ![32, 1]⟩ : Shape).Idx → EReal) (a12 : (⟨1, ![1]⟩ : Shape).Idx → EReal)
    (xg : (⟨2, ![2048, 1024]⟩ : Shape).Idx → EReal) (b : Fin 2048) (n : Fin 1024) :
    scores a0 a1 a3 a4 a5 a6 a7 a8 a9 a10 a11 a12 xg (ix2 b n) = scoresAt a0 a1 a3 a4 a5 a6 a7 a8 a9 a10 a11 a12 xg b n := rfl

end Cert.SetScore

end
-- ==== Proof.LibPlainDot.lean ====
import Idealize.ShloMosaic.Lib.ValueIdx
import Idealize.ShloMosaic.PureOps.Ideal.Laws

/-!
# A rows-by-columns product read at an index

For dimension numbers that contract the left operand's second axis with the right operand's first and have no
batch axis, the product `[M, K] × [K, N] → [M, N]` at the index `(p, q)` is the plain sum
`∑ k < K, l (p, k) · r (k, q)` over the extended reals — for the matrix unit's product into a zero accumulator and
for the host's `dot_general` alike, whatever `M`, `K`, `N` are. Two programs that cut the rows differently (one whole
array against row tiles) therefore compute the same entries.
-/

noncomputable section

namespace Cert.LibPlainDot

open Idealize.ShloMosaic Idealize.ShloMosaic.ValueIdx
open scoped BigOperators

/-- The dimension numbers of a rows-by-columns product: the left operand's axis 1 against the right operand's
    axis 0, the remaining axes kept in order, no batch axis. -/
structure Plain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Literal

variable {M K N : Nat}
  (wf : DotDims.WF (⟨2, ![M, K]⟩ : Shape) (⟨2, ![K, N]⟩ : Shape) (⟨2, ![M, N]⟩ : Shape) [1] [0] [0] [1] [] [])

/-- The record with the lists spelt out. -/
abbrev lit : DotDims ⟨2, ![M, K]⟩ ⟨2, ![K, N]⟩ ⟨2, ![M, N]⟩ := ⟨[1], [0], [0], [1], [], [], wf⟩

/-- The left operand's row is the result's row. -/
theorem lit_lhs0 (j : (⟨2, ![M, N]⟩ : Shape).Idx) (k : (lit wf).contr.Idx) : ((lit wf).lhsIdx j k 0).val = (j 0).val := by
  unfold DotDims.lhsIdx
  rw [dif_neg (show ¬ (0 : Fin 2) ∈ (lit wf).lhsBatch from List.not_mem_nil),
    dif_pos (show (0 : Fin 2) ∈ (lit wf).lhsNonContracting from List.mem_singleton.mpr rfl)]
  rfl

/-- The right operand's column is the result's column. -/
theorem lit_rhs1 (j : (⟨2, ![M, N]⟩ : Shape).Idx) (k : (lit wf).contr.Idx) : ((lit wf).rhsIdx j k 1).val = (j 1).val := by
  unfold DotDims.rhsIdx
  rw [dif_neg (show ¬ (1 : Fin 2) ∈ (lit wf).rhsBatch from List.not_mem_nil),
    dif_pos (show (1 : Fin 2) ∈ (lit wf).rhsNonContracting from List.mem_singleton.mpr rfl)]
  rfl

theorem lit_sum (l : (⟨2, ![M, K]⟩ : Shape).Idx → EReal) (r : (⟨2, ![K, N]⟩ : Shape).Idx → EReal) (p : Fin M) (q : Fin N) :
    ∑ k : (lit wf).contr.Idx, l ((lit wf).lhsIdx (ix2 p q) k) * r ((lit wf).rhsIdx (ix2 p q) k)
      = ∑ k : Fin K, l (ix2 p k) * r (ix2 k q) := by
  rw [← Equiv.sum_comp (contrEquiv1 (lit wf) K rfl rfl).symm]
  refine Finset.sum_congr rfl fun k _ => ?_
  have hk := contrEquiv1_symm_val (lit wf) K rfl rfl k
  have el : (lit wf).lhsIdx (ix2 p q) ((contrEquiv1 (lit wf) K rfl rfl).symm k) = ix2 p k := funext fun a => Fin.ext (by
    match a with
    | ⟨0, _⟩ => exact lit_lhs0 wf _ _
    | ⟨1, _⟩ => exact ((lit wf).lhsIdx_val_of_single rfl _ _).trans hk)
  have er : (lit wf).rhsIdx (ix2 p q) ((contrEquiv1 (lit wf) K rfl rfl).symm k) = ix2 k q := funext fun a => Fin.ext (by
    match a with
    | ⟨0, _⟩ => exact ((lit wf).rhsIdx_val_of_single rfl _ _).trans hk
    | ⟨1, _⟩ => exact lit_rhs1 wf _ _)
  rw [el, er]

end Literal

/-- The sum over the contraction index of a rows-by-columns product is the sum over `k < K` of the left operand
    at `(p, k)` times the right operand at `(k, q)`. -/
theorem sum_contr {M K N : Nat} (d : DotDims ⟨2, ![M, K]⟩ ⟨2, ![K, N]⟩ ⟨2, ![M, N]⟩) (h : Plain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  dsimp only at h1 h2 h3 h4 h5 h6
  subst h1 h2 h3 h4 h5 h6
  exact lit_sum wf l r p q

/-- The matrix unit's product into a zero accumulator, at an index: the plain sum. -/
theorem matmul_zero_apply {M K N : Nat} {φ₁ φ₂ : FTy} (d : DotDims ⟨2, ![M, K]⟩ ⟨2, ![K, N]⟩ ⟨2, ![M, N]⟩) (h : Plain d)
    (prec : Option ContractPrecision) (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) :=
  (Ideal.matmul_constant_zero_apply d prec lhs rhs (ix2 p q)).trans (sum_contr d h lhs rhs p q)

/-- The host's `dot_general` at an index: the same plain sum, whatever the schedule key. -/
theorem dotGeneral_apply {M K N : Nat} {φ₁ φ₂ : FTy} (d : DotDims ⟨2, ![M, K]⟩ ⟨2, ![K, N]⟩ ⟨2, ![M, N]⟩) (h : Plain d)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral d prec sched lhs rhs (ix2 p q) = ∑ k : Fin K, lhs (ix2 p k) * rhs (ix2 k q) :=
  (Ideal.dotGeneral_apply d prec sched lhs rhs (ix2 p q)).trans (sum_contr d h lhs rhs p q)

end Cert.LibPlainDot

end
-- ==== Proof.LibDenseTile.lean ====
import Idealize.ShloMosaic.Lib.ValueLayout
import Idealize.ShloMosaic.PureOps.Ideal.Laws
import proofs.«135003_j33045478375777_2_alg».proof.Proof.LibPlainDot

/-!
# A dense layer on a tile of rows

A tile `[M, K]` of rows times a weight matrix `[K, N]` into a zero accumulator, plus a bias vector `[N]` stood up as
one row `[1, N]` and repeated down the `M` rows, read at `(p, q)` over the extended reals: the plain sum
`∑ k < K, l (p, k) · w (k, q)` plus `b q`. Changes of float format on the way into the product are the identity there,
so the operands may carry any formats. Any `M`, `K`, `N`.
-/

noncomputable section

namespace Cert.LibDenseTile

open Idealize.ShloMosaic Idealize.ShloMosaic.ValueIdx
open scoped BigOperators

/-- A bias vector `[N]` stood up as a row and repeated down `M` rows reads, at `(p, q)`, its entry `q`. -/
theorem biasRows_apply {α : Type} {M N : Nat} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix1 q) :=
  (broadcastTo_1b_ab_apply _ hb p q).trans (shapeCast_a_1a_apply b hc (0 : Fin 1) q)

/-- The dense layer at `(p, q)`: the row's product with column `q`, plus the bias there. -/
theorem dense_apply {M K N : Nat} {φ₁ φ₂ : FTy} (d : DotDims ⟨2, ![M, K]⟩ ⟨2, ![K, N]⟩ ⟨2, ![M, N]⟩)
    (hd : LibPlainDot.Plain d) (prec : Option ContractPrecision)
    (l : FVec Ideal ⟨2, ![M, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (q : Fin N) :
    addf (matmul d prec l w (constant ⟨2, ![M, N]⟩ .f32 0x00000000#32))
        (broadcastTo ⟨2, ![M, N]⟩ (shapeCast ⟨2, ![1, N]⟩ b hc) hb) (ix2 p q)
      = (∑ k : Fin K, l (ix2 p k) * w (ix2 k q)) + b (ix1 q) := by
  rw [addf_apply, biasRows_apply b hc hb p q]
  exact congrArg (· + b (ix1 q)) (LibPlainDot.matmul_zero_apply d hd prec l w p q)

end Cert.LibDenseTile

end
-- ==== Proof.LibRank3Layout.lean ====
import Idealize.ShloMosaic.Lib.ValueLayout

/-!
# Rank-three arrays: rows folded together, and a unit axis broadcast

Two families of re-layings of a rank-three array `[a, b, c]`, each read at an index, for any extents.

*Folding the two leading axes.* The array `[a, b, c]` and the matrix `[n, c]` with `n = a * b` hold the same
entries in the same row-major order: entry `(i, j, l)` of the one is entry `(i * b + j, l)` of the other. So a shape
cast in either direction reads the operand at the index with the same folded row.

*Broadcasting along unit axes.* An array with a unit axis broadcast to `[a, b, c]` repeats its entries along that
axis: from `[a, 1, c]` the entry `(i, j, l)` is the operand's `(i, 0, l)`, from `[1, b, c]` it is `(0, j, l)`, from
`[1, 1, c]` it is `(0, 0, l)`. A vector `[c]` stood up as `[1, 1, c]` holds at `(0, 0, l)` its entry `l`.
-/

namespace Cert.LibRank3Layout

open Idealize.ShloMosaic Idealize.ShloMosaic.ValueIdx

variable {α : Type}

/-! ## Folding the two leading axes -/

/-- A matrix `[n, c]` cast to `[a, b, c]` reads, at `(i, j, l)`, the operand at `(r, l)` where `r = i * b + j`. -/
theorem shapeCast_nc_abc_apply {n a b c : ℕ} (x : (⟨2, ![n, c]⟩ : Shape).Idx → α)
    (h : (⟨2, ![n, c]⟩ : Shape).ShapeCasts ⟨3, ![a, b, c]⟩) (i : Fin a) (j : Fin b) (l : Fin c) (r : Fin n)
    (hr : r.val = i.val * b + j.val) :
    shapeCast ⟨3, ![a, b, c]⟩ x h (ix3 i j l) = x (ix2 r l) :=
  shapeCast_apply x h _ _ (by
    rw [Shape.rowMajor_val_two, Shape.rowMajor_val_three]
    show r.val * c + l.val = (i.val * b + j.val) * c + l.val
    rw [hr])

/-- An array `[a, b, c]` cast to the matrix `[n, c]` reads, at `(r, l)` with `r = i * b + j`, the operand at `(i, j, l)`. -/
theorem shapeCast_abc_nc_apply {n a b c : ℕ} (x : (⟨3, ![a, b, c]⟩ : Shape).Idx → α)
    (h : (⟨3, ![a, b, c]⟩ : Shape).ShapeCasts ⟨2, ![n, c]⟩) (i : Fin a) (j : Fin b) (l : Fin c) (r : Fin n)
    (hr : r.val = i.val * b + j.val) :
    shapeCast ⟨2, ![n, c]⟩ x h (ix2 r l) = x (ix3 i j l) :=
  shapeCast_apply x h _ _ (by
    rw [Shape.rowMajor_val_two, Shape.rowMajor_val_three]
    show (i.val * b + j.val) * c + l.val = r.val * c + l.val
    rw [hr])

/-! ## A vector stood up with two leading unit axes -/

/-- A vector `[c]` cast to `[1, 1, c]` reads, at `(u, u', l)`, the operand at `l`, whatever the unit coordinates are. -/
theorem shapeCast_c_11c_apply {c : ℕ} (x : (⟨1, ![c]⟩ : Shape).Idx → α)
    (h : (⟨1, ![c]⟩ : Shape).ShapeCasts ⟨3, ![1, 1, c]⟩) (u u' : Fin 1) (l : Fin c) :
    shapeCast ⟨3, ![1, 1, c]⟩ x h (ix3 u u' l) = x (ix1 l) :=
  shapeCast_apply x h _ _ (by
    have hu : u.val = 0 := by omega
    have hu' : u'.val = 0 := by omega
    rw [Shape.rowMajor_val_three, Shape.rowMajor_val_one]
    show l.val = (u.val * 1 + u'.val) * c + l.val
    rw [hu, hu']
    simp)

/-! ## Broadcasting along unit axes -/

/-- An `[a, 1, c]` array broadcast to `[a, b, c]` reads, at `(i, j, l)`, the operand at `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(i, j, l)`, the operand at `(0, j, l)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

/-- A `[1, 1, c]` array broadcast to `[a, b, c]` reads, at `(i, j, l)`, the operand at `(0, 0, l)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (l : Fin c) :
    broadcastTo ⟨3, ![a, b, c]⟩ v h (ix3 i j l) = v (ix3 (0 : Fin 1) (0 : Fin 1) l) := by
  refine broadcastTo_apply v h (ix3 i j l) (ix3 (0 : Fin 1) (0 : Fin 1) l) fun ax => ?_
  match ax with
  | ⟨0, _⟩ => rfl
  | ⟨1, _⟩ => rfl
  | ⟨2, _⟩ =>
    show l.val = if c = 1 then 0 else l.val
    split
    · have := l.isLt; omega
    · rfl

end Cert.LibRank3Layout
-- ==== Proof.LibMidUnit.lean ====
import Idealize.ShloMosaic.Lib.ValueLayout

/-!
# A unit axis in the middle

An array of shape `[a, 1, b]` and the array of shape `[a, b]` obtained by dropping its middle axis hold the same
entries in the same row-major order: the entry at `(i, 0, j)` of the one is the entry at `(i, j)` of the other.
So a shape cast in either direction, read at an index, reads the operand at the index with the same row and the
same column, whatever `a` and `b` are. This is how a batch of row vectors kept with a singleton time axis is
handed to, and taken back from, an operation on plain matrices.
-/

namespace Cert.LibMidUnit

open Idealize.ShloMosaic Idealize.ShloMosaic.ValueIdx

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`, whatever the unit
    coordinate `u` is. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

end Cert.LibMidUnit
-- ==== Proof.LibMidSum.lean ====
import Idealize.ShloMosaic.Lib.ValueLayout
import Idealize.ShloMosaic.PureOps.Ideal.Laws

/-!
# Rank-three arrays: a trailing unit axis, and the sum over the middle axis

A matrix `[a, b]` given a trailing unit axis `[a, b, 1]` holds the same entries in the same order. The sum of an
`[a, b, c]` array over its middle axis, read at `(i, l)` over the extended reals, is `∑ k < b` of the entries
`(i, k, l)`. Any extents.
-/

noncomputable section

namespace Cert.LibMidSum

open Idealize.ShloMosaic Idealize.ShloMosaic.ValueIdx
open scoped BigOperators

/-- An `[a, b]` array cast to `[a, b, 1]` reads, at `(i, j, u)`, the operand at `(i, j)`. -/
theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`. -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- The sum over the middle axis of an `[a, b, c]` array, at `(i, l)`. -/
theorem sumMid_apply {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (l : Fin c) :
    multiReduction .add [1] ⟨2, ![a, c]⟩ src acc h hφ hacc (ix2 i l) = ∑ k : Fin b, src (ix3 i k l) := by
  refine (Ideal.multiReduction_add_single src acc h hφ hacc (ix2 i l)).trans ?_
  refine Finset.sum_congr rfl fun k _ => congrArg src (funext fun ax => Fin.ext ?_)
  match ax with
  | ⟨0, _⟩ => rfl
  | ⟨1, _⟩ => rfl
  | ⟨2, _⟩ => rfl

end Cert.LibMidSum

end
-- ==== Proof.KernelRows.lean ====
import proofs.«135003_j33045478375777_2_alg».proof.Proof.Gen.KernelIdeal.Skeleton
import proofs.«135003_j33045478375777_2_alg».proof.Proof.SetScore
import proofs.«135003_j33045478375777_2_alg».proof.Proof.LibDenseTile
import proofs.«135003_j33045478375777_2_alg».proof.Proof.LibRank3Layout
import proofs.«135003_j33045478375777_2_alg».proof.Proof.LibMidUnit
import proofs.«135003_j33045478375777_2_alg».proof.Proof.LibMidSum
import Idealize.ShloMosaic.Lib.ValueLayout
import Idealize.ShloMosaic.Lib.Pipeline.Value
import Idealize.ShloMosaic.PureOps.Ideal.Laws

/-!
# The kernel body's stored value, item by item

The body treats a tile of sixteen batch rows at once: it folds the tile's `16 × 1024` items into the rows of one
matrix for the dense layers, and unfolds them again for the sums over a batch row's items. Read at item `n` of
batch row `p` of the tile, every intermediate value is the corresponding quantity of the row's own computation
(`SetScore`): the embeddings, the presence numbers and their count, both layers' gates (computed side by side with the
two layers' gate weights joined along the columns), the two residual layers, and the final score.
-/

noncomputable section

namespace Cert.KernelIdeal.Rows

open Cert.KernelIdeal Cert.KernelIdeal.Gen Cert.SetScore Idealize.ShloMosaic Idealize.ShloMosaic.ValueIdx
open scoped BigOperators

theorem plain_emb1 : LibPlainDot.Plain dot_S16384x64_S64x32_S16384x32_1_0_0_1_n_n := ⟨rfl, rfl, rfl, rfl, rfl, rfl⟩
theorem plain_emb2 : LibPlainDot.Plain dot_S16384x32_S32x32_S16384x32_1_0_0_1_n_n := ⟨rfl, rfl, rfl, rfl, rfl, rfl⟩
theorem plain_gate : LibPlainDot.Plain dot_S16384x32_S32x64_S16384x64_1_0_0_1_n_n := ⟨rfl, rfl, rfl, rfl, rfl, rfl⟩
theorem plain_proj : LibPlainDot.Plain dot_S16x32_S32x32_S16x32_1_0_0_1_n_n := ⟨rfl, rfl, rfl, rfl, rfl, rfl⟩
theorem plain_head : LibPlainDot.Plain dot_S16384x32_S32x1_S16384x1_1_0_0_1_n_n := ⟨rfl, rfl, rfl, rfl, rfl, rfl⟩

/-- The embeddings of the tile's items, rows folded: row `r = p * 1024 + n` is item `n` of batch row `p`. -/
theorem pay2_apply (v0 : Vec Ideal S16x1024x64 .f32) (v3 : Vec Ideal S64x32 .f32) (v6 : Vec Ideal S32 .f32)
    (v13 : Vec Ideal S32x32 .f32) (v16 : Vec Ideal S32 .f32)
    (p : Fin 16) (n : Fin 1024) (r : Fin 16384) (hr : r.val = p.val * 1024 + n.val) (j : Fin 32) :
    k0_pay2 v0 v3 v6 v13 v16 (ix2 r j)
      = emb (fun k j => v3 (ix2 k j)) (fun j => v6 (ix1 j)) (fun k j => v13 (ix2 k j)) (fun j => v16 (ix1 j))
          (fun k => v0 (ix3 p n k)) j := by
  unfold k0_pay2
  refine (LibDenseTile.dense_apply _ plain_emb2 none _ _ v16 _ _ r j).trans ?_
  unfold emb
  refine congrArg (· + v16 (ix1 j)) (Finset.sum_congr rfl fun k _ => ?_)
  refine congrArg (· * v13 (ix2 k j)) ?_
  refine Eq.trans (truncf_apply (ψ := FTy.bf16) (φ := FTy.f32) _ bitsLt_bf16_f32 _) ?_
  refine (maximumf_apply _ _ _).trans ?_
  unfold hid
  refine congrArg (max · (Ideal.ofBits .f32 0x00000000#32)) ?_
  refine (LibDenseTile.dense_apply _ plain_emb1 none _ _ v6 _ _ r k).trans ?_
  refine congrArg (· + v6 (ix1 k)) (Finset.sum_congr rfl fun k' _ => ?_)
  refine congrArg (· * v3 (ix2 k' k)) ?_
  exact LibRank3Layout.shapeCast_abc_nc_apply _ _ p n k' r hr

/-- The presence words of the tile as numbers, with a trailing unit axis. -/
theorem pay3_apply (v20 : Vec Ideal S16x1024 .i32) (p : Fin 16) (n : Fin 1024) (u : Fin 1) :
    k0_pay3 (F := Ideal) v20 (ix3 p n u) = present (v20 (ix2 p n)) := by
  unfold k0_pay3
  exact LibMidSum.shapeCast_ab_ab1_apply _ _ p n u

/-- The count of present items of each batch row of the tile, plus the small constant. -/
theorem pay4_apply (v20 : Vec Ideal S16x1024 .i32) (p : Fin 16) (u u' : Fin 1) :
    k0_pay4 (F := Ideal) v20 (ix3 p u u') = SetScore.count (fun n => v20 (ix2 p n)) := by
  unfold k0_pay4
  refine (addf_apply _ _ _).trans ?_
  unfold SetScore.count
  refine congrArg (· + Ideal.ofBits .f32 0x322BCC77#32) ?_
  refine (LibMidUnit.shapeCast_ab_a1b_apply _ _ p u u').trans ?_
  refine (LibMidSum.sumMid_apply _ _ _ _ _ p u').trans ?_
  exact Finset.sum_congr rfl fun n _ => pay3_apply v20 p n u'

/-- Row `p * 1024 + n` of the folded tile: item `n` of batch row `p`. -/
def row (p : Fin 16) (n : Fin 1024) : Fin 16384 := ⟨p.val * 1024 + n.val, by omega⟩

/-- Column `j` of the first layer's half of the side-by-side gate weights. -/
def lo (j : Fin 32) : Fin 64 := ⟨j.val, by omega⟩
/-- Column `j` of the second layer's half: `32 + j`. -/
def hi (j : Fin 32) : Fin 64 := ⟨32 + j.val, by omega⟩

/-- Both layers' gates of the tile's items, side by side along the last axis: column `c` of the joined weights. -/
theorem pay5_apply (v0 : Vec Ideal S16x1024x64 .f32) (v3 : Vec Ideal S64x32 .f32) (v6 : Vec Ideal S32 .f32)
    (v13 : Vec Ideal S32x32 .f32) (v16 : Vec Ideal S32 .f32) (v28 : Vec Ideal S32x64 .f32) (v32 : Vec Ideal S64 .f32)
    (p : Fin 16) (n : Fin 1024) (c : Fin 64) :
    k0_pay5 v0 v3 v6 v13 v16 v28 v32 (ix3 p n c)
      = Ideal.tanh ((∑ k : Fin 32,
            emb (fun k j => v3 (ix2 k j)) (fun j => v6 (ix1 j)) (fun k j => v13 (ix2 k j)) (fun j => v16 (ix1 j))
              (fun k => v0 (ix3 p n k)) k * v28 (ix2 k c)) + v32 (ix1 c)) := by
  unfold k0_pay5
  have e1 : shapeCast S64 v32 shapeCasts_S64_S64 = v32 := shapeCast_self _ _
  have e2 : shapeCast S32x64 v28 shapeCasts_S32x64_S32x64 = v28 := shapeCast_self _ _
  rw [e1, e2]
  refine (LibRank3Layout.shapeCast_nc_abc_apply _ _ p n c (row p n) rfl).trans ?_
  refine congrArg Ideal.tanh ?_
  refine (LibDenseTile.dense_apply _ plain_gate none _ _ v32 _ _ (row p n) c).trans ?_
  refine congrArg (· + v32 (ix1 c)) (Finset.sum_congr rfl fun k _ => ?_)
  refine congrArg (· * v28 (ix2 k c)) ?_
  exact pay2_apply v0 v3 v6 v13 v16 p n (row p n) rfl k

/-- The average over the present items of each batch row of the tile, as the body spells it. -/
def avgVec (Z : FVec Ideal S16x1024x32 .f32) (v22 : FVec Ideal S16x1024x1 .f32) (v26 : FVec Ideal S16x1x1 .f32) :
    FVec Ideal S16x32 .f32 :=
  shapeCast S16x32
    (divf
      (shapeCast S16x1x32
        (multiReduction .add [1] S16x32 (mulf Z (broadcastTo S16x1024x32 v22 broadcasts_S16x1024x1_S16x1024x32))
          0x00000000#32 reduces_S16x1024x32_S16x32 (.inl rfl) rfl)
        shapeCasts_S16x32_S16x1x32)
      (broadcastTo S16x1x32 v26 broadcasts_S16x1x1_S16x1x32))
    shapeCasts_S16x1x32_S16x32

theorem avgVec_apply (Z : FVec Ideal S16x1024x32 .f32) (v22 : FVec Ideal S16x1024x1 .f32) (v26 : FVec Ideal S16x1x1 .f32)
    (p : Fin 16) (zf : Fin 1024 → Fin 32 → EReal) (mk : Fin 1024 → BitVec 32)
    (hZ : ∀ n k, Z (ix3 p n k) = zf n k) (h22 : ∀ n u, v22 (ix3 p n u) = present (mk n))
    (h26 : ∀ u u', v26 (ix3 p u u') = SetScore.count mk) (k : Fin 32) :
    avgVec Z v22 v26 (ix2 p k) = pooled zf mk k := by
  unfold avgVec
  refine (LibMidUnit.shapeCast_a1b_ab_apply _ _ p k).trans ?_
  refine (divf_apply _ _ _).trans ?_
  unfold pooled
  refine congrArg₂ Ideal.div ?_ ?_
  · refine (LibMidUnit.shapeCast_ab_a1b_apply _ _ p (0 : Fin 1) k).trans ?_
    refine (LibMidSum.sumMid_apply _ _ _ _ _ p k).trans ?_
    refine Finset.sum_congr rfl fun n _ => ?_
    refine (mulf_apply _ _ _).trans ?_
    refine congrArg₂ (· * ·) (hZ n k) ?_
    exact (LibMidSum.broadcastTo_ab1_abc_apply _ _ p n k).trans (h22 n 0)
  · exact (LibMidSum.broadcastTo_ab1_abc_apply _ _ p (0 : Fin 1) k).trans (h26 0 0)

/-- The dense layer on the averages, one row of weights and one of bias cut out of the stacked ones. -/
def projVec (zb : FVec Ideal S16x32 .f32) (w : Vec Ideal S1x32x32 .f32) (bv : Vec Ideal S1x32 .f32) :
    FVec Ideal S16x1x32 .f32 :=
  shapeCast S16x1x32
    (addf
      (matmul dot_S16x32_S32x32_S16x32_1_0_0_1_n_n none (truncf .bf16 zb bitsLt_bf16_f32)
        (truncf .bf16 (shapeCast S32x32 w shapeCasts_S1x32x32_S32x32) bitsLt_bf16_f32) (constant S16x32 .f32 0x00000000#32))
      (broadcastTo S16x32 (shapeCast S1x32 (shapeCast S32 bv shapeCasts_S1x32_S32) shapeCasts_S32_S1x32)
        broadcasts_S1x32_S16x32))
    shapeCasts_S16x32_S16x1x32

theorem projVec_apply (zb : FVec Ideal S16x32 .f32) (w : Vec Ideal S1x32x32 .f32) (bv : Vec Ideal S1x32 .f32)
    (p : Fin 16) (zbf : Fin 32 → EReal) (hzb : ∀ k, zb (ix2 p k) = zbf k) (u : Fin 1) (j : Fin 32) :
    projVec zb w bv (ix3 p u j)
      = proj (fun k j => w (ix3 (0 : Fin 1) k j)) (fun j => bv (ix2 (0 : Fin 1) j)) zbf j := by
  unfold projVec
  refine (LibMidUnit.shapeCast_ab_a1b_apply _ _ p u j).trans ?_
  refine (LibDenseTile.dense_apply _ plain_proj none _ _ (shapeCast S32 bv shapeCasts_S1x32_S32) _ _ p j).trans ?_
  unfold proj
  refine congrArg₂ (· + ·) (Finset.sum_congr rfl fun k _ => ?_) ?_
  · refine congrArg₂ (· * ·) (hzb k) ?_
    exact shapeCast_1ab_ab_apply w _ k j
  · exact shapeCast_1a_a_apply bv _ j

/-- A residual step: the embeddings plus the projected average, repeated over the items, times the gates. -/
def residVec (Z : FVec Ideal S16x1024x32 .f32) (pr : FVec Ideal S16x1x32 .f32) (g : FVec Ideal S16x1024x32 .f32) :
    FVec Ideal S16x1024x32 .f32 :=
  addf Z (mulf (broadcastTo S16x1024x32 pr broadcasts_S16x1x32_S16x1024x32) g)

theorem residVec_apply (Z : FVec Ideal S16x1024x32 .f32) (pr : FVec Ideal S16x1x32 .f32) (g : FVec Ideal S16x1024x32 .f32)
    (p : Fin 16) (n : Fin 1024) (j : Fin 32) :
    residVec Z pr g (ix3 p n j) = Z (ix3 p n j) + pr (ix3 p (0 : Fin 1) j) * g (ix3 p n j) := by
  unfold residVec
  refine (addf_apply _ _ _).trans ?_
  refine congrArg (Z (ix3 p n j) + ·) ?_
  refine (mulf_apply _ _ _).trans ?_
  exact congrArg (· * g (ix3 p n j)) (LibRank3Layout.broadcastTo_a1c_abc_apply pr _ p n j)

/-- One layer's half of the side-by-side gates: columns `off2 .. off2 + 31`. -/
theorem gateSlice_apply (g : FVec Ideal S16x1024x64 .f32) (off2 : Nat) (h : S16x1024x64.Slices ![0, 0, off2] S16x1024x32)
    (p : Fin 16) (n : Fin 1024) (j : Fin 32) (c : Fin 64) (hc : c.val = off2 + j.val) :
    extractStridedSlice S16x1024x32 ![0, 0, off2] g h (ix3 p n j) = g (ix3 p n c) :=
  extractStridedSlice_apply _ g h _ _ (fun a => by
    match a with
    | ⟨0, _⟩ => exact (Nat.zero_add _).symm
    | ⟨1, _⟩ => exact (Nat.zero_add _).symm
    | ⟨2, _⟩ => exact hc)

/-- One whole layer in the body's spelling. -/
def layerVec (Z : FVec Ideal S16x1024x32 .f32) (v22 : FVec Ideal S16x1024x1 .f32) (v26 : FVec Ideal S16x1x1 .f32)
    (w : Vec Ideal S1x32x32 .f32) (bv : Vec Ideal S1x32 .f32) (g : FVec Ideal S16x1024x32 .f32) : FVec Ideal S16x1024x32 .f32 :=
  residVec Z (projVec (avgVec Z v22 v26) w bv) g

theorem layerVec_apply (Z : FVec Ideal S16x1024x32 .f32) (v22 : FVec Ideal S16x1024x1 .f32) (v26 : FVec Ideal S16x1x1 .f32)
    (w : Vec Ideal S1x32x32 .f32) (bv : Vec Ideal S1x32 .f32) (g : FVec Ideal S16x1024x32 .f32)
    (p : Fin 16) (z0 zf : Fin 1024 → Fin 32 → EReal) (mk : Fin 1024 → BitVec 32)
    (wm : Fin 32 → Fin 32 → EReal) (bm : Fin 32 → EReal)
    (hZ : ∀ n k, Z (ix3 p n k) = zf n k) (h22 : ∀ n u, v22 (ix3 p n u) = present (mk n))
    (h26 : ∀ u u', v26 (ix3 p u u') = SetScore.count mk) (hg : ∀ n j, g (ix3 p n j) = gate wm bm (z0 n) j)
    (n : Fin 1024) (j : Fin 32) :
    layerVec Z v22 v26 w bv g (ix3 p n j)
      = layer (fun k j => w (ix3 (0 : Fin 1) k j)) (fun j => bv (ix2 (0 : Fin 1) j)) wm bm z0 zf mk n j := by
  unfold layerVec
  refine (residVec_apply _ _ _ p n j).trans ?_
  unfold layer
  refine congrArg₂ (· + ·) (hZ n j) (congrArg₂ (· * ·) ?_ (hg n j))
  exact projVec_apply _ w bv p (pooled zf mk) (fun k => avgVec_apply Z v22 v26 p zf mk hZ h22 h26 k) 0 j

/-- The two residual layers of the body are two such layers over the embeddings re-folded by batch row. -/
theorem pay6_eq (v19 : FVec Ideal S16384x32 .f32) (v22 : FVec Ideal S16x1024x1 .f32) (v26 : FVec Ideal S16x1x1 .f32)
    (v38 : FVec Ideal S16x1024x64 .f32) (v48 : Vec Ideal S1x32x32 .f32) (v52 : Vec Ideal S1x32 .f32)
    (v70 : Vec Ideal S1x32x32 .f32) (v74 : Vec Ideal S1x32 .f32) :
    k0_pay6 v19 v22 v26 v38 v48 v52 v70 v74
      = shapeCast S16384x32
          (layerVec
            (layerVec (shapeCast S16x1024x32 v19 shapeCasts_S16384x32_S16x1024x32) v22 v26 v48 v52
              (extractStridedSlice S16x1024x32 ![0, 0, 0] v38 slices_S16x1024x64_o0_0_0_S16x1024x32))
            v22 v26 v70 v74
            (extractStridedSlice S16x1024x32 ![0, 0, 32] v38 slices_S16x1024x64_o0_0_32_S16x1024x32))
          shapeCasts_S16x1024x32_S16384x32 := rfl

theorem pay6_apply (v19 : FVec Ideal S16384x32 .f32) (v22 : FVec Ideal S16x1024x1 .f32) (v26 : FVec Ideal S16x1x1 .f32)
    (v38 : FVec Ideal S16x1024x64 .f32) (v48 : Vec Ideal S1x32x32 .f32) (v52 : Vec Ideal S1x32 .f32)
    (v70 : Vec Ideal S1x32x32 .f32) (v74 : Vec Ideal S1x32 .f32)
    (p : Fin 16) (z0 : Fin 1024 → Fin 32 → EReal) (mk : Fin 1024 → BitVec 32)
    (wm0 : Fin 32 → Fin 32 → EReal) (bm0 : Fin 32 → EReal) (wm1 : Fin 32 → Fin 32 → EReal) (bm1 : Fin 32 → EReal)
    (h19 : ∀ n j, v19 (ix2 (row p n) j) = z0 n j) (h22 : ∀ n u, v22 (ix3 p n u) = present (mk n))
    (h26 : ∀ u u', v26 (ix3 p u u') = SetScore.count mk)
    (h38a : ∀ n j, v38 (ix3 p n (lo j)) = gate wm0 bm0 (z0 n) j)
    (h38b : ∀ n j, v38 (ix3 p n (hi j)) = gate wm1 bm1 (z0 n) j)
    (n : Fin 1024) (j : Fin 32) :
    k0_pay6 v19 v22 v26 v38 v48 v52 v70 v74 (ix2 (row p n) j)
      = layer (fun k j => v70 (ix3 (0 : Fin 1) k j)) (fun j => v74 (ix2 (0 : Fin 1) j)) wm1 bm1 z0
          (layer (fun k j => v48 (ix3 (0 : Fin 1) k j)) (fun j => v52 (ix2 (0 : Fin 1) j)) wm0 bm0 z0 z0 mk) mk n j := by
  rw [pay6_eq]
  refine (LibRank3Layout.shapeCast_abc_nc_apply _ _ p n j (row p n) rfl).trans ?_
  have hZ0 : ∀ n k, shapeCast S16x1024x32 v19 shapeCasts_S16384x32_S16x1024x32 (ix3 p n k) = z0 n k := fun n k =>
    (LibRank3Layout.shapeCast_nc_abc_apply v19 _ p n k (row p n) rfl).trans (h19 n k)
  have hg0 : ∀ n j, extractStridedSlice S16x1024x32 ![0, 0, 0] v38 slices_S16x1024x64_o0_0_0_S16x1024x32 (ix3 p n j)
      = gate wm0 bm0 (z0 n) j := fun n j =>
    (gateSlice_apply v38 0 _ p n j (lo j) (Nat.zero_add _).symm).trans (h38a n j)
  have hg1 : ∀ n j, extractStridedSlice S16x1024x32 ![0, 0, 32] v38 slices_S16x1024x64_o0_0_32_S16x1024x32 (ix3 p n j)
      = gate wm1 bm1 (z0 n) j := fun n j =>
    (gateSlice_apply v38 32 _ p n j (hi j) rfl).trans (h38b n j)
  exact layerVec_apply _ v22 v26 v70 v74 _ p z0 _ mk wm1 bm1
    (fun n k => layerVec_apply _ v22 v26 v48 v52 _ p z0 z0 mk wm0 bm0 hZ0 h22 h26 hg0 n k) h22 h26 hg1 n j

/-- The head on the folded rows, the offsets, and the large negative constant at absent items. -/
theorem pay1_apply (v84 : FVec Ideal S16384x32 .f32) (v86 : Vec Ideal S32x1 .f32) (v89 : Vec Ideal S1 .f32)
    (v94 : Vec Ideal S16x1024 .f32) (v97 : Vec Ideal S16x1024 .i32) (p : Fin 16) (n : Fin 1024) :
    k0_pay1 v84 v86 v89 v94 v97 (ix2 p n)
      = Scalar.select (IntOp.cmpi .ne (v97 (ix2 p n)) 0#32)
          (head (fun k => v86 (ix2 k (0 : Fin 1))) (v89 (ix1 (0 : Fin 1))) (fun k => v84 (ix2 (row p n) k)) + v94 (ix2 p n))
          (Ideal.ofBits .f32 0xCE6E6B28#32) := by
  unfold k0_pay1
  have e1 : shapeCast S16x1024 v94 shapeCasts_S16x1024_S16x1024 = v94 := shapeCast_self _ _
  rw [e1]
  refine (select_apply _ _ _ _).trans ?_
  refine congrArg (Scalar.select (IntOp.cmpi .ne (v97 (ix2 p n)) 0#32) · (Ideal.ofBits .f32 0xCE6E6B28#32)) ?_
  refine (addf_apply _ _ _).trans ?_
  refine congrArg (· + v94 (ix2 p n)) ?_
  refine (shapeCast_apply _ _ _ (ix2 (row p n) (0 : Fin 1)) (by
    rw [Shape.rowMajor_val_two, Shape.rowMajor_val_two]
    show (p.val * 1024 + n.val) * 1 + 0 = p.val * 1024 + n.val
    omega)).trans ?_
  exact LibDenseTile.dense_apply _ plain_head none _ _ v89 _ _ (row p n) (0 : Fin 1)

/-- The body's stored value at item `n` of batch row `p` of the tile is that row's score there: a function of
    the row's own features, presence words and offsets, and of the weights. -/
theorem payload_apply (v0 : Vec Ideal S16x1024x64 .f32) (v3 : Vec Ideal S64x32 .f32) (v6 : Vec Ideal S32 .f32)
    (v13 : Vec Ideal S32x32 .f32) (v16 : Vec Ideal S32 .f32) (v20 : Vec Ideal S16x1024 .i32)
    (v28 : Vec Ideal S32x64 .f32) (v32 : Vec Ideal S64 .f32) (v48 : Vec Ideal S1x32x32 .f32) (v52 : Vec Ideal S1x32 .f32)
    (v70 : Vec Ideal S1x32x32 .f32) (v74 : Vec Ideal S1x32 .f32) (v86 : Vec Ideal S32x1 .f32) (v89 : Vec Ideal S1 .f32)
    (v94 : Vec Ideal S16x1024 .f32) (p : Fin 16) (n : Fin 1024) :
    k0_pay1 (k0_pay6 (k0_pay2 v0 v3 v6 v13 v16) (k0_pay3 v20) (k0_pay4 v20) (k0_pay5 v0 v3 v6 v13 v16 v28 v32) v48 v52 v70 v74)
        v86 v89 v94 v20 (ix2 p n)
      = rowOut (fun k j => v3 (ix2 k j)) (fun j => v6 (ix1 j)) (fun k j => v13 (ix2 k j)) (fun j => v16 (ix1 j))
          (fun k j => v48 (ix3 (0 : Fin 1) k j)) (fun j => v52 (ix2 (0 : Fin 1) j))
          (fun k j => v70 (ix3 (0 : Fin 1) k j)) (fun j => v74 (ix2 (0 : Fin 1) j))
          (fun k j => v28 (ix2 k (lo j))) (fun j => v32 (ix1 (lo j)))
          (fun k j => v28 (ix2 k (hi j))) (fun j => v32 (ix1 (hi j)))
          (fun k => v86 (ix2 k (0 : Fin 1))) (v89 (ix1 (0 : Fin 1)))
          (fun n k => v0 (ix3 p n k)) (fun n => v20 (ix2 p n)) (fun n => v94 (ix2 p n)) n := by
  refine (pay1_apply _ v86 v89 v94 v20 p n).trans ?_
  unfold rowOut
  refine congrArg (Scalar.select (IntOp.cmpi .ne (v20 (ix2 p n)) 0#32) · (Ideal.ofBits .f32 0xCE6E6B28#32)) ?_
  refine congrArg (· + v94 (ix2 p n)) ?_
  unfold head
  refine congrArg (· + v89 (ix1 (0 : Fin 1))) (Finset.sum_congr rfl fun k _ => congrArg (· * v86 (ix2 k (0 : Fin 1))) ?_)
  exact pay6_apply _ _ _ _ v48 v52 v70 v74 p
    (fun n => emb (fun k j => v3 (ix2 k j)) (fun j => v6 (ix1 j)) (fun k j => v13 (ix2 k j)) (fun j => v16 (ix1 j))
      (fun k => v0 (ix3 p n k)))
    (fun n => v20 (ix2 p n))
    (fun k j => v28 (ix2 k (lo j))) (fun j => v32 (ix1 (lo j))) (fun k j => v28 (ix2 k (hi j))) (fun j => v32 (ix1 (hi j)))
    (fun n j => pay2_apply v0 v3 v6 v13 v16 p n (row p n) rfl j) (fun n u => pay3_apply v20 p n u)
    (fun u u' => pay4_apply v20 p u u')
    (fun n j => pay5_apply v0 v3 v6 v13 v16 v28 v32 p n (lo j)) (fun n j => pay5_apply v0 v3 v6 v13 v16 v28 v32 p n (hi j)) n k

end Cert.KernelIdeal.Rows

end
-- ==== Proof.HostGlue.lean ====
import proofs.«135003_j33045478375777_2_alg».proof.Proof.Gen.KernelIdeal.Frame
import proofs.«135003_j33045478375777_2_alg».proof.Proof.KernelRows
import Idealize.ShloMosaic.Lib.ValueLayout
import Idealize.ShloMosaic.Lib.Pipeline.Value
import Idealize.ShloMosaic.Lib.StableHlo.Run

/-!
# What the host prepares before the kernel is launched

Before the launch the program joins the two layers' gate weights side by side along the columns, `[32, 32]` and
`[32, 32]` into `[32, 64]`, and the two gate biases end to end, `[32]` and `[32]` into `[64]`; and it gathers one row of
offsets per batch row. Read at an index, column `j` of the first half of the joined weights is layer 0's column `j`
and column `32 + j` is layer 1's column `j`; likewise for the bias.
-/

noncomputable section

namespace Cert.KernelIdeal.Glue

open Cert.KernelIdeal Cert.KernelIdeal.Gen Cert.KernelIdeal.Rows Idealize.ShloMosaic Idealize.ShloMosaic.ValueIdx
open Idealize.ShloMosaic.TcCoe Idealize.SL.Sem Idealize.ShloMosaic.StableHlo

variable (m : (ℓ : Loc nD τ sig) → Buf (Elt Ideal) ℓ)

/-- The joined gate weights, as the operations that made them. -/
theorem V_main_v4 (c : Dev nD) :
    (V m c main_v4 : S32x64.Idx → EReal)
      = concatenate S32x64 1
          [⟨S32x32, shapeCast S32x32 (extractStridedSlice S1x32x32 ![0, 0, 0] (m ((c : Thread nD τ).loc main_arg9) : S2x32x32.Idx → EReal) slices_S2x32x32_S1x32x32_0_0_0) shapeCasts_S1x32x32_S32x32⟩,
           ⟨S32x32, shapeCast S32x32 (extractStridedSlice S1x32x32 ![1, 0, 0] (m ((c : Thread nD τ).loc main_arg9) : S2x32x32.Idx → EReal) slices_S2x32x32_S1x32x32_1_0_0) shapeCasts_S1x32x32_S32x32⟩]
          concatenates_S32x32_S32x32_S32x64_d1 := by
  dsimp only [Gen.V, Gen.hostOps0]
  after_results
  rfl

/-- The joined gate biases, as the operations that made them. -/
theorem V_main_v9 (c : Dev nD) :
    (V m c main_v9 : S64.Idx → EReal)
      = concatenate S64 0
          [⟨S32, shapeCast S32 (extractStridedSlice S1x32 ![0, 0] (m ((c : Thread nD τ).loc main_arg10) : S2x32.Idx → EReal) slices_S2x32_S1x32_0_0) shapeCasts_S1x32_S32⟩,
           ⟨S32, shapeCast S32 (extractStridedSlice S1x32 ![1, 0] (m ((c : Thread nD τ).loc main_arg10) : S2x32.Idx → EReal) slices_S2x32_S1x32_1_0) shapeCasts_S1x32_S32⟩]
          concatenates_S32_S32_S64_d0 := by
  dsimp only [Gen.V, Gen.hostOps0]
  after_results
  rfl

/-- One layer's `[32, 32]` weights cut out of the stacked `[2, 32, 32]` array. -/
theorem layerSlice_apply (x : S2x32x32.Idx → EReal) (l : Nat) (h : S2x32x32.Slices ![l, 0, 0] S1x32x32)
    (hc : S1x32x32.ShapeCasts S32x32) (lf : Fin 2) (hl : lf.val = l) (k j : Fin 32) :
    shapeCast S32x32 (extractStridedSlice S1x32x32 ![l, 0, 0] x h) hc (ix2 k j) = x (ix3 lf k j) :=
  (shapeCast_1ab_ab_apply _ hc k j).trans (extractStridedSlice_apply _ x h _ _ (fun a => by
    match a with
    | ⟨0, _⟩ => exact hl
    | ⟨1, _⟩ => exact (Nat.zero_add _).symm
    | ⟨2, _⟩ => exact (Nat.zero_add _).symm))

/-- One layer's `[32]` bias cut out of the stacked `[2, 32]` array. -/
theorem biasSlice_apply (x : S2x32.Idx → EReal) (l : Nat) (h : S2x32.Slices ![l, 0] S1x32)
    (hc : S1x32.ShapeCasts S32) (lf : Fin 2) (hl : lf.val = l) (j : Fin 32) :
    shapeCast S32 (extractStridedSlice S1x32 ![l, 0] x h) hc (ix1 j) = x (ix2 lf j) :=
  (shapeCast_1a_a_apply _ hc j).trans (extractStridedSlice_apply _ x h _ _ (fun a => by
    match a with
    | ⟨0, _⟩ => exact hl
    | ⟨1, _⟩ => exact (Nat.zero_add _).symm))

/-- Column `j` of the joined weights is layer 0's column `j`. -/
theorem wcat_lo (c : Dev nD) (k j : Fin 32) :
    (V m c main_v4 : S32x64.Idx → EReal) (ix2 k (lo j))
      = (m ((c : Thread nD τ).loc main_arg9) : S2x32x32.Idx → EReal) (ix3 (0 : Fin 2) k j) := by
  rw [V_main_v4]
  refine (concatenate_pair_apply_left (t := S32x64) (s₁ := S32x32) (s₂ := S32x32) (1 : Fin 2) _ _ _ (ix2 k (lo j)) rfl (ix2 k j) (fun b => by
    match b with
    | ⟨0, _⟩ => rfl
    | ⟨1, _⟩ => rfl)).trans ?_
  exact layerSlice_apply _ 0 _ _ (0 : Fin 2) rfl k j

/-- Column `32 + j` of the joined weights is layer 1's column `j`. -/
theorem wcat_hi (c : Dev nD) (k j : Fin 32) :
    (V m c main_v4 : S32x64.Idx → EReal) (ix2 k (hi j))
      = (m ((c : Thread nD τ).loc main_arg9) : S2x32x32.Idx → EReal) (ix3 (1 : Fin 2) k j) := by
  rw [V_main_v4]
  refine (concatenate_pair_apply_right (t := S32x64) (s₁ := S32x32) (s₂ := S32x32) (1 : Fin 2) _ _ _ (ix2 k (hi j)) rfl rfl (ix2 k j) (fun b hb => by
    match b with
    | ⟨0, _⟩ => rfl
    | ⟨1, _⟩ => exact absurd rfl hb) (Nat.add_comm _ _)).trans ?_
  exact layerSlice_apply _ 1 _ _ (1 : Fin 2) rfl k j

/-- Entry `j` of the joined biases is layer 0's entry `j`. -/
theorem bcat_lo (c : Dev nD) (j : Fin 32) :
    (V m c main_v9 : S64.Idx → EReal) (ix1 (lo j))
      = (m ((c : Thread nD τ).loc main_arg10) : S2x32.Idx → EReal) (ix2 (0 : Fin 2) j) := by
  rw [V_main_v9]
  refine (concatenate_pair_apply_left (t := S64) (s₁ := S32) (s₂ := S32) (0 : Fin 1) _ _ _ (ix1 (lo j)) rfl (ix1 j) (fun b => by
    match b with
    | ⟨0, _⟩ => rfl)).trans ?_
  exact biasSlice_apply _ 0 _ _ (0 : Fin 2) rfl j

/-- Entry `32 + j` of the joined biases is layer 1's entry `j`. -/
theorem bcat_hi (c : Dev nD) (j : Fin 32) :
    (V m c main_v9 : S64.Idx → EReal) (ix1 (hi j))
      = (m ((c : Thread nD τ).loc main_arg10) : S2x32.Idx → EReal) (ix2 (1 : Fin 2) j) := by
  rw [V_main_v9]
  refine (concatenate_pair_apply_right (t := S64) (s₁ := S32) (s₂ := S32) (0 : Fin 1) _ _ _ (ix1 (hi j)) rfl rfl (ix1 j) (fun b hb => by
    match b with
    | ⟨0, _⟩ => exact absurd rfl hb) (Nat.add_comm _ _)).trans ?_
  exact biasSlice_apply _ 1 _ _ (1 : Fin 2) rfl j

end Cert.KernelIdeal.Glue

end
-- ==== Proof.KernelWhole.lean ====
import proofs.«135003_j33045478375777_2_alg».proof.Proof.Gen.KernelIdeal.Value
import proofs.«135003_j33045478375777_2_alg».proof.Proof.KernelRows
import proofs.«135003_j33045478375777_2_alg».proof.Proof.HostGlue
import proofs.«135003_j33045478375777_2_alg».proof.Proof.ScoreArray
import Idealize.ShloMosaic.Lib.Pipeline.Value
import Idealize.ShloMosaic.Lib.Tactic

/-!
# From the tiles to the whole array

The kernel visits 128 grid points; at point `t` it is handed rows `16 t … 16 t + 15` of the features, of the presence
words and of the gathered offsets, and every weight array whole, and it writes back the same sixteen rows of the result.
Each block read is therefore an entry of an argument array (of the joined gate weights, an entry of one layer's
gate weights), the body's stored value is the row's score, the 128 blocks cover the result, and the result array
ends holding every row's scores.
-/

noncomputable section

namespace Cert.KernelIdeal.Whole

open Cert.KernelIdeal Cert.KernelIdeal.Gen Cert.KernelIdeal.Value Cert.KernelIdeal.Rows Cert.KernelIdeal.Glue Cert.SetScore
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- Where each window's block sits at grid point `t`: the three row-tiled arrays and the result move sixteen rows per
    point, every weight window stays on its whole array (decided over the 128 points). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 3) = 0 ∧ win0_7.index t (1 : Fin 3) = 0 ∧ win0_7.index t (2 : Fin 3) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = t.val ∧ win0_13.index t (1 : Fin 2) = 0 :=
  (by decide +kernel : ∀ t : Fin grid0.N, _)

/-- The features' block at point `t`: rows `16 t … 16 t + 15` of the array. -/
theorem ld_x (c : Dev nD) (t : Fin cfg0.N) (p : Fin 16) (n : Fin 1024) (k : Fin 64) (b : Fin 2048) (hb : b.val = t.val * 16 + p.val) :
    View.ld (iblk m c 0 t) r0_0 (ix3 p n k) = (m ((c : Thread nD τ).loc main_arg0) : S2048x1024x64.Idx → EReal) (ix3 b n k) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg0 _ = _
  rw [V_main_arg0]
  refine congrArg _ (funext fun a => Fin.ext ?_)
  match a with
  | ⟨0, _⟩ => show win0_0.index t (0 : Fin 3) * 16 + 1 * (0 + 1 * p.val) = b.val; rw [f0_0, hb]; omega
  | ⟨1, _⟩ => show win0_0.index t (1 : Fin 3) * 1024 + 1 * (0 + 1 * n.val) = n.val; rw [f0_1]; omega
  | ⟨2, _⟩ => show win0_0.index t (2 : Fin 3) * 64 + 1 * (0 + 1 * k.val) = k.val; rw [f0_2]; omega

/-- The presence words' block at point `t`: the same sixteen rows. -/
theorem ld_mk (c : Dev nD) (t : Fin cfg0.N) (p : Fin 16) (n : Fin 1024) (b : Fin 2048) (hb : b.val = t.val * 16 + p.val) :
    View.ld (iblk m c 1 t) r0_4 (ix2 p n) = (m ((c : Thread nD τ).loc main_arg1) : S2048x1024.Idx → BitVec 32) (ix2 b n) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg1 _ = _
  rw [V_main_arg1]
  refine congrArg _ (funext fun a => Fin.ext ?_)
  match a with
  | ⟨0, _⟩ => show win0_1.index t (0 : Fin 2) * 16 + 1 * (0 + 1 * p.val) = b.val; rw [f1_0, hb]; omega
  | ⟨1, _⟩ => show win0_1.index t (1 : Fin 2) * 1024 + 1 * (0 + 1 * n.val) = n.val; rw [f1_1]; omega

/-- The gathered offsets' block at point `t`: the same sixteen rows. -/
theorem ld_xg (c : Dev nD) (t : Fin cfg0.N) (p : Fin 16) (n : Fin 1024) (b : Fin 2048) (hb : b.val = t.val * 16 + p.val) :
    View.ld (iblk m c 2 t) r0_4 (ix2 p n) = (V m c main_v16 : S2048x1024.Idx → EReal) (ix2 b n) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_v16 _ = _
  refine congrArg _ (funext fun a => Fin.ext ?_)
  match a with
  | ⟨0, _⟩ => show win0_2.index t (0 : Fin 2) * 16 + 1 * (0 + 1 * p.val) = b.val; rw [f2_0, hb]; omega
  | ⟨1, _⟩ => show win0_2.index t (1 : Fin 2) * 1024 + 1 * (0 + 1 * n.val) = n.val; rw [f2_1]; omega

/-- A weight window is its whole array at every point. -/
theorem ld_w1 (c : Dev nD) (t : Fin cfg0.N) (k : Fin 64) (j : Fin 32) :
    View.ld (iblk m c 3 t) r0_1 (ix2 k j) = (m ((c : Thread nD τ).loc main_arg3) : S64x32.Idx → EReal) (ix2 k j) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg3 _ = _
  rw [V_main_arg3]
  refine congrArg _ (funext fun a => Fin.ext ?_)
  match a with
  | ⟨0, _⟩ => show win0_3.index t (0 : Fin 2) * 64 + 1 * (0 + 1 * k.val) = k.val; rw [f3_0]; omega
  | ⟨1, _⟩ => show win0_3.index t (1 : Fin 2) * 32 + 1 * (0 + 1 * j.val) = j.val; rw [f3_1]; omega

/-- A weight window is its whole array at every point. -/
theorem ld_b1 (c : Dev nD) (t : Fin cfg0.N) (j : Fin 32) :
    View.ld (iblk m c 4 t) r0_2 (ix1 j) = (m ((c : Thread nD τ).loc main_arg4) : S32.Idx → EReal) (ix1 j) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg4 _ = _
  rw [V_main_arg4]
  refine congrArg _ (funext fun a => Fin.ext ?_)
  match a with
  | ⟨0, _⟩ => show win0_4.index t (0 : Fin 1) * 32 + 1 * (0 + 1 * j.val) = j.val; rw [f4_0]; omega

/-- A weight window is its whole array at every point. -/
theorem ld_w2 (c : Dev nD) (t : Fin cfg0.N) (k : Fin 32) (j : Fin 32) :
    View.ld (iblk m c 5 t) r0_3 (ix2 k j) = (m ((c : Thread nD τ).loc main_arg5) : S32x32.Idx → EReal) (ix2 k j) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg5 _ = _
  rw [V_main_arg5]
  refine congrArg _ (funext fun a => Fin.ext ?_)
  match a with
  | ⟨0, _⟩ => show win0_5.index t (0 : Fin 2) * 32 + 1 * (0 + 1 * k.val) = k.val; rw [f5_0]; omega
  | ⟨1, _⟩ => show win0_5.index t (1 : Fin 2) * 32 + 1 * (0 + 1 * j.val) = j.val; rw [f5_1]; omega

/-- A weight window is its whole array at every point. -/
theorem ld_b2 (c : Dev nD) (t : Fin cfg0.N) (j : Fin 32) :
    View.ld (iblk m c 6 t) r0_2 (ix1 j) = (m ((c : Thread nD τ).loc main_arg6) : S32.Idx → EReal) (ix1 j) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg6 _ = _
  rw [V_main_arg6]
  refine congrArg _ (funext fun a => Fin.ext ?_)
  match a with
  | ⟨0, _⟩ => show win0_6.index t (0 : Fin 1) * 32 + 1 * (0 + 1 * j.val) = j.val; rw [f6_0]; omega

/-- Layer 0's projection weights: slab 0 of the stacked array. -/
theorem ld_wp0 (c : Dev nD) (t : Fin cfg0.N) (u : Fin 1) (k : Fin 32) (j : Fin 32) :
    View.ld (iblk m c 7 t) r0_7 (ix3 u k j) = (m ((c : Thread nD τ).loc main_arg7) : S2x32x32.Idx → EReal) (ix3 (0 : Fin 2) k j) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg7 _ = _
  rw [V_main_arg7]
  refine congrArg _ (funext fun a => Fin.ext ?_)
  match a with
  | ⟨0, _⟩ => show win0_7.index t (0 : Fin 3) * 2 + 1 * (0 + 1 * u.val) = 0; rw [f7_0]; omega
  | ⟨1, _⟩ => show win0_7.index t (1 : Fin 3) * 32 + 1 * (0 + 1 * k.val) = k.val; rw [f7_1]; omega
  | ⟨2, _⟩ => show win0_7.index t (2 : Fin 3) * 32 + 1 * (0 + 1 * j.val) = j.val; rw [f7_2]; omega

/-- Layer 1's projection weights: slab 1 of the stacked array. -/
theorem ld_wp1 (c : Dev nD) (t : Fin cfg0.N) (u : Fin 1) (k : Fin 32) (j : Fin 32) :
    View.ld (iblk m c 7 t) r0_9 (ix3 u k j) = (m ((c : Thread nD τ).loc main_arg7) : S2x32x32.Idx → EReal) (ix3 (1 : Fin 2) k j) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg7 _ = _
  rw [V_main_arg7]
  refine congrArg _ (funext fun a => Fin.ext ?_)
  match a with
  | ⟨0, _⟩ => show win0_7.index t (0 : Fin 3) * 2 + 1 * (1 + 1 * u.val) = 1; rw [f7_0]; omega
  | ⟨1, _⟩ => show win0_7.index t (1 : Fin 3) * 32 + 1 * (0 + 1 * k.val) = k.val; rw [f7_1]; omega
  | ⟨2, _⟩ => show win0_7.index t (2 : Fin 3) * 32 + 1 * (0 + 1 * j.val) = j.val; rw [f7_2]; omega

/-- Layer 0's projection bias: row 0 of the stacked array. -/
theorem ld_bp0 (c : Dev nD) (t : Fin cfg0.N) (u : Fin 1) (j : Fin 32) :
    View.ld (iblk m c 8 t) r0_8 (ix2 u j) = (m ((c : Thread nD τ).loc main_arg8) : S2x32.Idx → EReal) (ix2 (0 : Fin 2) j) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg8 _ = _
  rw [V_main_arg8]
  refine congrArg _ (funext fun a => Fin.ext ?_)
  match a with
  | ⟨0, _⟩ => show win0_8.index t (0 : Fin 2) * 2 + 1 * (0 + 1 * u.val) = 0; rw [f8_0]; omega
  | ⟨1, _⟩ => show win0_8.index t (1 : Fin 2) * 32 + 1 * (0 + 1 * j.val) = j.val; rw [f8_1]; omega

/-- Layer 1's projection bias: row 1 of the stacked array. -/
theorem ld_bp1 (c : Dev nD) (t : Fin cfg0.N) (u : Fin 1) (j : Fin 32) :
    View.ld (iblk m c 8 t) r0_10 (ix2 u j) = (m ((c : Thread nD τ).loc main_arg8) : S2x32.Idx → EReal) (ix2 (1 : Fin 2) j) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg8 _ = _
  rw [V_main_arg8]
  refine congrArg _ (funext fun a => Fin.ext ?_)
  match a with
  | ⟨0, _⟩ => show win0_8.index t (0 : Fin 2) * 2 + 1 * (1 + 1 * u.val) = 1; rw [f8_0]; omega
  | ⟨1, _⟩ => show win0_8.index t (1 : Fin 2) * 32 + 1 * (0 + 1 * j.val) = j.val; rw [f8_1]; omega

/-- The joined gate weights' window is the whole joined array. -/
theorem ld_wcat (c : Dev nD) (t : Fin cfg0.N) (k : Fin 32) (q : Fin 64) :
    View.ld (iblk m c 9 t) r0_5 (ix2 k q) = (V m c main_v4 : S32x64.Idx → EReal) (ix2 k q) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_v4 _ = _
  refine congrArg _ (funext fun a => Fin.ext ?_)
  match a with
  | ⟨0, _⟩ => show win0_9.index t (0 : Fin 2) * 32 + 1 * (0 + 1 * k.val) = k.val; rw [f9_0]; omega
  | ⟨1, _⟩ => show win0_9.index t (1 : Fin 2) * 64 + 1 * (0 + 1 * q.val) = q.val; rw [f9_1]; omega

/-- The joined gate biases' window is the whole joined array. -/
theorem ld_bcat (c : Dev nD) (t : Fin cfg0.N) (q : Fin 64) :
    View.ld (iblk m c 10 t) r0_6 (ix1 q) = (V m c main_v9 : S64.Idx → EReal) (ix1 q) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_v9 _ = _
  refine congrArg _ (funext fun a => Fin.ext ?_)
  match a with
  | ⟨0, _⟩ => show win0_10.index t (0 : Fin 1) * 64 + 1 * (0 + 1 * q.val) = q.val; rw [f10_0]; omega

/-- A weight window is its whole array at every point. -/
theorem ld_wh (c : Dev nD) (t : Fin cfg0.N) (k : Fin 32) (u : Fin 1) :
    View.ld (iblk m c 11 t) r0_11 (ix2 k u) = (m ((c : Thread nD τ).loc main_arg11) : S32x1.Idx → EReal) (ix2 k u) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg11 _ = _
  rw [V_main_arg11]
  refine congrArg _ (funext fun a => Fin.ext ?_)
  match a with
  | ⟨0, _⟩ => show win0_11.index t (0 : Fin 2) * 32 + 1 * (0 + 1 * k.val) = k.val; rw [f11_0]; omega
  | ⟨1, _⟩ => show win0_11.index t (1 : Fin 2) * 1 + 1 * (0 + 1 * u.val) = u.val; rw [f11_1]; omega

/-- A weight window is its whole array at every point. -/
theorem ld_bh (c : Dev nD) (t : Fin cfg0.N) (u : Fin 1) :
    View.ld (iblk m c 12 t) r0_12 (ix1 u) = (m ((c : Thread nD τ).loc main_arg12) : S1.Idx → EReal) (ix1 u) := by
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  show V m c main_arg12 _ = _
  rw [V_main_arg12]
  refine congrArg _ (funext fun a => Fin.ext ?_)
  match a with
  | ⟨0, _⟩ => show win0_12.index t (0 : Fin 1) * 1 + 1 * (0 + 1 * u.val) = u.val; rw [f12_0]; omega

theorem hz : (![0, 0] : Fin 2 → Nat) = fun _ => 0 := funext fun a => by fin_cases a <;> rfl

/-- The array the kernel leaves: every row's scores, from the argument arrays and the gathered offsets. -/
def result (c : Dev nD) : S2048x1024.Idx → EReal :=
  scores (m ((c : Thread nD τ).loc main_arg0) : S2048x1024x64.Idx → EReal)
      (m ((c : Thread nD τ).loc main_arg1) : S2048x1024.Idx → BitVec 32)
      (m ((c : Thread nD τ).loc main_arg3) : S64x32.Idx → EReal)
      (m ((c : Thread nD τ).loc main_arg4) : S32.Idx → EReal)
      (m ((c : Thread nD τ).loc main_arg5) : S32x32.Idx → EReal)
      (m ((c : Thread nD τ).loc main_arg6) : S32.Idx → EReal)
      (m ((c : Thread nD τ).loc main_arg7) : S2x32x32.Idx → EReal)
      (m ((c : Thread nD τ).loc main_arg8) : S2x32.Idx → EReal)
      (m ((c : Thread nD τ).loc main_arg9) : S2x32x32.Idx → EReal)
      (m ((c : Thread nD τ).loc main_arg10) : S2x32.Idx → EReal)
      (m ((c : Thread nD τ).loc main_arg11) : S32x1.Idx → EReal)
      (m ((c : Thread nD τ).loc main_arg12) : S1.Idx → EReal)
      (V m c main_v16 : S2048x1024.Idx → EReal)

/-- What point `t` writes back is rows `16 t … 16 t + 15` of the scores: the body's stored value at item `n` of the
    tile's row `p` is the score of row `16 t + p` at item `n`, because the tile's blocks are those rows of the arrays and
    the weight windows are the whole weight arrays. -/
theorem flushed_eq (c : Dev nD) (t : Fin cfg0.N) :
    (dats m 0 c).flushed 13 t = ((cfg0.win 13).blk t).view.read (Elt Ideal) (result m c) := by
  rw [Value.flushed13]
  unfold out0_13
  rw [View.canon_unit_zero hz]
  funext y
  have hN : cfg0.N = 128 := N_0
  have ht := t.isLt
  have hy0 : (y 0).val < 16 := (y 0).isLt
  have hy1 : (y 1).val < 1024 := (y 1).isLt
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  let p : Fin 16 := ⟨(y 0).val, hy0⟩
  let n : Fin 1024 := ⟨(y 1).val, hy1⟩
  let b : Fin 2048 := ⟨t.val * 16 + (y 0).val, by omega⟩
  have hy : (cfg0.win 13).xinj (grid0.coords t) y = (ix2 p n : S16x1024.Idx) :=
    funext fun a => Fin.ext (by
      match a with
      | ⟨0, _⟩ => rfl
      | ⟨1, _⟩ => rfl)
  have he : ((cfg0.win 13).blk t).view.emb y = (ix2 b n : S2048x1024.Idx) :=
    funext fun a => Fin.ext (by
      match a with
      | ⟨0, _⟩ => show win0_13.index t (0 : Fin 2) * 16 + 1 * (y 0).val = t.val * 16 + (y 0).val; rw [f13_0]; omega
      | ⟨1, _⟩ => show win0_13.index t (1 : Fin 2) * 1024 + 1 * (y 1).val = (y 1).val; rw [f13_1]; omega)
  show (k0_pay1 (F := Ideal) _ _ _ _ _) ((cfg0.win 13).xinj (grid0.coords t) y) = result m c (((cfg0.win 13).blk t).view.emb y)
  rw [hy, he]
  refine (payload_apply _ _ _ _ _ _ _ _ _ _ _ _ _ _ _ p n).trans ?_
  show _ = scoresAt _ _ _ _ _ _ _ _ _ _ _ _ _ b n
  unfold scoresAt
  exact rowOut_ext (fun k j => ld_w1 m c t k j) (fun j => ld_b1 m c t j) (fun k j => ld_w2 m c t k j) (fun j => ld_b2 m c t j)
    (fun k j => ld_wp0 m c t 0 k j) (fun j => ld_bp0 m c t 0 j) (fun k j => ld_wp1 m c t 0 k j) (fun j => ld_bp1 m c t 0 j)
    (fun k j => (ld_wcat m c t k (lo j)).trans (wcat_lo m c k j)) (fun j => (ld_bcat m c t (lo j)).trans (bcat_lo m c j))
    (fun k j => (ld_wcat m c t k (hi j)).trans (wcat_hi m c k j)) (fun j => (ld_bcat m c t (hi j)).trans (bcat_hi m c j))
    (fun k => ld_wh m c t k 0) (ld_bh m c t 0)
    (fun n' k => ld_x m c t p n' k b rfl) (fun n' => ld_mk m c t p n' b rfl) (fun n' => ld_xg m c t p n' b rfl) n

/-- Every row of the result lies in some point's block: row `r` in the block of point `r / 16`. -/
theorem cover (c : Dev nD) (i : S2048x1024.Idx) :
    ∃ t : Fin cfg0.N, (cfg0.win 13).flush t = true ∧ i ∈ ((cfg0.win 13).blk t).view.set := by
  have hN : cfg0.N = 128 := N_0
  have hi0 : (i 0).val < 2048 := (i 0).isLt
  have hi1 : (i 1).val < 1024 := (i 1).isLt
  let t : Fin cfg0.N := ⟨(i 0).val / 16, by omega⟩
  have htv : t.val = (i 0).val / 16 := rfl
  obtain ⟨f0_0, f0_1, f0_2, f1_0, f1_1, f2_0, f2_1, f3_0, f3_1, f4_0, f5_0, f5_1, f6_0, f7_0, f7_1, f7_2, f8_0, f8_1, f9_0, f9_1, f10_0, f11_0, f11_1, f12_0, f13_0, f13_1⟩ := idx_facts t
  refine ⟨t, flush0_13 t, ?_⟩
  show i ∈ ((View.whole main_v17).slice (win0_13.rect t)).set
  rw [View.set_slice_whole, Rect.mem_set_unit]
  intro a
  match a with
  | ⟨0, _⟩ =>
    show win0_13.index t (0 : Fin 2) * 16 ≤ (i 0).val ∧ (i 0).val < win0_13.index t (0 : Fin 2) * 16 + 16
    rw [f13_0, htv]; omega
  | ⟨1, _⟩ =>
    show win0_13.index t (1 : Fin 2) * 1024 ≤ (i 1).val ∧ (i 1).val < win0_13.index t (1 : Fin 2) * 1024 + 1024
    rw [f13_1]; omega

/-- So the result array ends holding the scores. -/
theorem final (c : Dev nD) : (dats m 0 c).arrAt 13 cfg0.N = result m c :=
  (dats m 0 c).arrAt_eq_of_cover 13 (result m c) (fun t _ => flushed_eq m c t) (cover c)

/-- The kernel's run, read: the result array at the scores, the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Value.run_blocks m ρ)

end Cert.KernelIdeal.Whole

end
-- ==== Proof.RefScore.lean ====
import proofs.«135003_j33045478375777_2_alg».proof.Proof.Gen.ReferenceIdeal.Read
import proofs.«135003_j33045478375777_2_alg».proof.Proof.SetScore
import Idealize.ShloMosaic.Lib.ValueIdx
import Idealize.ShloMosaic.PureOps.Ideal.Laws

/-!
# The reference program computes the scores of every row

The reference program treats all 2048 rows at once: arrays of rank three, indexed by row, item and feature. Read at
one row `b`, each of its stages is the corresponding stage of `Cert.SetScore` on that row alone: the embeddings
(two dense layers, the first rectified), the presence words as numbers, their count plus the small constant, the
masked average, the dense map of the average and the tanh gate of each residual layer (the layer's weights are a
slice of a stacked array, read through a reshape), the two residual layers, the head, and the select that writes the
large negative constant at absent items. Every stage is read at explicit coordinates; the index maps of the layout
operations (broadcasts, slices, reshapes, the operands of the contractions) compose to plain coordinate tuples, and a
sum that starts from the constant zero is the bare sum. The offsets added before the select come from a gather,
which is kept as the array it is.
-/

noncomputable section

namespace Cert.ReferenceIdeal.RefScore

open Cert.ReferenceIdeal Cert.ReferenceIdeal.Read Cert.SetScore Idealize.ShloMosaic Idealize.ShloMosaic.ValueIdx
open scoped BigOperators

/-! Two index functions agree when they agree coordinate by coordinate. -/

local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

section Stages

variable (x0 : FVec Ideal S2048x1024x64 .f32) (x1 : IVec S2048x1024 32) (x2 : IVec S2048 32)
  (x3 : FVec Ideal S64x32 .f32) (x4 : FVec Ideal S32 .f32) (x5 : FVec Ideal S32x32 .f32) (x6 : FVec Ideal S32 .f32)
  (x7 : FVec Ideal S2x32x32 .f32) (x8 : FVec Ideal S2x32 .f32) (x9 : FVec Ideal S2x32x32 .f32) (x10 : FVec Ideal S2x32 .f32)
  (x11 : FVec Ideal S32x1 .f32) (x12 : FVec Ideal S1 .f32) (x13 : FVec Ideal S1000x1024 .f32)

/-- The presence words of row `b`. -/
abbrev rowM (b : Fin 2048) : Fin 1024 → BitVec 32 := fun n => x1 (ix2 b n)

/-- The embeddings of the items of row `b`. -/
abbrev rowZ0 (b : Fin 2048) : Fin 1024 → Fin 32 → EReal := fun n =>
  emb (fun k j => x3 (ix2 k j)) (fun j => x4 (ix1 j)) (fun k j => x5 (ix2 k j)) (fun j => x6 (ix1 j))
    (fun k => x0 (ix3 b n k))

/-- Row `b` after the first residual layer. -/
abbrev rowZ1 (b : Fin 2048) : Fin 1024 → Fin 32 → EReal :=
  layer (fun k j => x7 (ix3 (0 : Fin 2) k j)) (fun j => x8 (ix2 (0 : Fin 2) j))
    (fun k j => x9 (ix3 (0 : Fin 2) k j)) (fun j => x10 (ix2 (0 : Fin 2) j))
    (rowZ0 x0 x3 x4 x5 x6 b) (rowZ0 x0 x3 x4 x5 x6 b) (rowM x1 b)

/-- Row `b` after the second residual layer. -/
abbrev rowZ2 (b : Fin 2048) : Fin 1024 → Fin 32 → EReal :=
  layer (fun k j => x7 (ix3 (1 : Fin 2) k j)) (fun j => x8 (ix2 (1 : Fin 2) j))
    (fun k j => x9 (ix3 (1 : Fin 2) k j)) (fun j => x10 (ix2 (1 : Fin 2) j))
    (rowZ0 x0 x3 x4 x5 x6 b) (rowZ1 x0 x1 x3 x4 x5 x6 x7 x8 x9 x10 b) (rowM x1 b)

/-- The rectified first dense layer of item `n` of row `b`. -/
theorem v4_at (b : Fin 2048) (n : Fin 1024) (j : Fin 32) :
    val_main_v4 (F := Ideal) x0 x3 x4 (ix3 b n j)
      = hid (fun k j => x3 (ix2 k j)) (fun j => x4 (ix1 j)) (fun k => x0 (ix3 b n k)) j := by
  rw [val_main_v4_apply, val_main_v3_apply, val_main_v0_apply, val_main_v2_apply, val_main_v1_apply,
    val_main_call0_v0_apply, val_main_call0_cst_apply]
  have e1 : ∀ k : Fin 64, lidx_main_v0 (ix3 b n j) k = ix3 b n k := fun k => by idx3
  have e2 : ∀ k : Fin 64, ridx_main_v0 (ix3 b n j) k = ix2 k j := fun k => by idx2
  have e3 : idx_main_v1 (idx_main_v2 (ix3 b n j)) = ix1 j := by idx1
  simp only [e1, e2, e3]
  rfl

/-- The embedding of item `n` of row `b`. -/
theorem v8_at (b : Fin 2048) (n : Fin 1024) (j : Fin 32) :
    val_main_v8 (F := Ideal) x0 x3 x4 x5 x6 (ix3 b n j) = rowZ0 x0 x3 x4 x5 x6 b n j := by
  rw [val_main_v8_apply, val_main_v5_apply, val_main_v7_apply, val_main_v6_apply]
  have e1 : ∀ k : Fin 32, lidx_main_v5 (ix3 b n j) k = ix3 b n k := fun k => by idx3
  have e2 : ∀ k : Fin 32, ridx_main_v5 (ix3 b n j) k = ix2 k j := fun k => by idx2
  have e3 : idx_main_v6 (idx_main_v7 (ix3 b n j)) = ix1 j := by idx1
  simp only [e1, e2, e3, v4_at]
  rfl

/-- The presence word of item `n` of row `b` as a number. -/
theorem v10_at (b : Fin 2048) (n : Fin 1024) (u : Fin 1) :
    val_main_v10 (F := Ideal) x1 (ix3 b n u) = present (x1 (ix2 b n)) := by
  rw [val_main_v10_apply, val_main_v9_apply]
  have e : idx_main_v10 (ix3 b n u) = ix2 b n := by idx2
  rw [e]
  rfl

theorem v15_at (b : Fin 2048) (n : Fin 1024) (j : Fin 32) :
    val_main_v15 (F := Ideal) x1 (ix3 b n j) = present (x1 (ix2 b n)) := by
  rw [val_main_v15_apply]
  have e : idx_main_v15 (ix3 b n j) = ix3 b n (0 : Fin 1) := by idx3
  rw [e, v10_at]

theorem v41_at (b : Fin 2048) (n : Fin 1024) (j : Fin 32) :
    val_main_v41 (F := Ideal) x1 (ix3 b n j) = present (x1 (ix2 b n)) := by
  rw [val_main_v41_apply]
  have e : idx_main_v41 (ix3 b n j) = ix3 b n (0 : Fin 1) := by idx3
  rw [e, v10_at]

/-- The count of present items of row `b`, plus the small constant. -/
theorem v14_at (b : Fin 2048) (u u' : Fin 1) :
    val_main_v14 (F := Ideal) x1 (ix3 b u u') = SetScore.count (rowM x1 b) := by
  rw [val_main_v14_apply, val_main_v12_apply, val_main_v11_apply, val_main_cst_apply, val_main_v13_apply,
    val_main_cst_0_apply]
  have e : ∀ k : Fin 1024, idx_main_v11 (idx_main_v12 (ix3 b u u')) k = ix3 b k (0 : Fin 1) := fun k => by idx3
  simp only [e, v10_at, Ideal.addf_def, Ideal.ofBits_def, Ideal.ofBits_zero_f32, zero_add]
  rfl

/-- The masked sum of the embeddings of row `b`. -/
theorem v17_at (b : Fin 2048) (j : Fin 32) :
    val_main_v17 (F := Ideal) x0 x1 x3 x4 x5 x6 (ix2 b j)
      = ∑ n : Fin 1024, rowZ0 x0 x3 x4 x5 x6 b n j * present (rowM x1 b n) := by
  rw [val_main_v17_apply, val_main_cst_1_apply]
  have e : ∀ k : Fin 1024, idx_main_v17 (ix2 b j) k = ix3 b k j := fun k => by idx3
  simp only [e, val_main_v16_apply, v8_at, v15_at, Ideal.mulf_def, Ideal.ofBits_def, Ideal.ofBits_zero_f32, zero_add]

/-- The average of the embeddings over the present items of row `b`. -/
theorem v20_at (b : Fin 2048) (u : Fin 1) (j : Fin 32) :
    val_main_v20 (F := Ideal) x0 x1 x3 x4 x5 x6 (ix3 b u j)
      = pooled (rowZ0 x0 x3 x4 x5 x6 b) (rowM x1 b) j := by
  rw [val_main_v20_apply, val_main_v18_apply, val_main_v19_apply]
  have e1 : idx_main_v18 (ix3 b u j) = ix2 b j := by idx2
  have e2 : idx_main_v19 (ix3 b u j) = ix3 b (0 : Fin 1) (0 : Fin 1) := by idx3
  rw [e1, e2, v17_at, v14_at]
  rfl

/-! The weights of the two residual layers, sliced out of the stacked arrays. -/

theorem v22_at (k j : Fin 32) :
    val_main_v22 (F := Ideal) x7 (ix2 k j) = x7 (ix3 (0 : Fin 2) k j) := by
  rw [val_main_v22_apply, val_main_v21_apply]
  have hk := k.isLt
  have hj := j.isLt
  have e : idx_main_v21 (idx_main_v22 (ix2 k j)) = ix3 (0 : Fin 2) k j :=
    funext fun a => Fin.ext (by
      match a with
      | ⟨0, _⟩ => rfl
      | ⟨1, _⟩ => show (k.val * 32 + j.val) / 32 % 32 = k.val; omega
      | ⟨2, _⟩ => show (k.val * 32 + j.val) % 32 = j.val; omega)
  rw [e]

theorem v30_at (k j : Fin 32) :
    val_main_v30 (F := Ideal) x9 (ix2 k j) = x9 (ix3 (0 : Fin 2) k j) := by
  rw [val_main_v30_apply, val_main_v29_apply]
  have hk := k.isLt
  have hj := j.isLt
  have e : idx_main_v29 (idx_main_v30 (ix2 k j)) = ix3 (0 : Fin 2) k j :=
    funext fun a => Fin.ext (by
      match a with
      | ⟨0, _⟩ => rfl
      | ⟨1, _⟩ => show (k.val * 32 + j.val) / 32 % 32 = k.val; omega
      | ⟨2, _⟩ => show (k.val * 32 + j.val) % 32 = j.val; omega)
  rw [e]

theorem v48_at (k j : Fin 32) :
    val_main_v48 (F := Ideal) x7 (ix2 k j) = x7 (ix3 (1 : Fin 2) k j) := by
  rw [val_main_v48_apply, val_main_v47_apply]
  have hk := k.isLt
  have hj := j.isLt
  have e : idx_main_v47 (idx_main_v48 (ix2 k j)) = ix3 (1 : Fin 2) k j :=
    funext fun a => Fin.ext (by
      match a with
      | ⟨0, _⟩ => rfl
      | ⟨1, _⟩ => show (k.val * 32 + j.val) / 32 % 32 = k.val; omega
      | ⟨2, _⟩ => show (k.val * 32 + j.val) % 32 = j.val; omega)
  rw [e]

theorem v56_at (k j : Fin 32) :
    val_main_v56 (F := Ideal) x9 (ix2 k j) = x9 (ix3 (1 : Fin 2) k j) := by
  rw [val_main_v56_apply, val_main_v55_apply]
  have hk := k.isLt
  have hj := j.isLt
  have e : idx_main_v55 (idx_main_v56 (ix2 k j)) = ix3 (1 : Fin 2) k j :=
    funext fun a => Fin.ext (by
      match a with
      | ⟨0, _⟩ => rfl
      | ⟨1, _⟩ => show (k.val * 32 + j.val) / 32 % 32 = k.val; omega
      | ⟨2, _⟩ => show (k.val * 32 + j.val) % 32 = j.val; omega)
  rw [e]

theorem v27_at (b : Fin 2048) (u : Fin 1) (j : Fin 32) :
    val_main_v27 (F := Ideal) x8 (ix3 b u j) = x8 (ix2 (0 : Fin 2) j) := by
  rw [val_main_v27_apply, val_main_v26_apply, val_main_v25_apply, val_main_v24_apply]
  have hj := j.isLt
  have e : idx_main_v24 (idx_main_v25 (idx_main_v26 (idx_main_v27 (ix3 b u j)))) = ix2 (0 : Fin 2) j :=
    funext fun a => Fin.ext (by
      match a with
      | ⟨0, _⟩ => rfl
      | ⟨1, _⟩ => show j.val % 32 = j.val; omega)
  rw [e]

theorem v35_at (b : Fin 2048) (n : Fin 1024) (j : Fin 32) :
    val_main_v35 (F := Ideal) x10 (ix3 b n j) = x10 (ix2 (0 : Fin 2) j) := by
  rw [val_main_v35_apply, val_main_v34_apply, val_main_v33_apply, val_main_v32_apply]
  have hj := j.isLt
  have e : idx_main_v32 (idx_main_v33 (idx_main_v34 (idx_main_v35 (ix3 b n j)))) = ix2 (0 : Fin 2) j :=
    funext fun a => Fin.ext (by
      match a with
      | ⟨0, _⟩ => rfl
      | ⟨1, _⟩ => show j.val % 32 = j.val; omega)
  rw [e]

theorem v53_at (b : Fin 2048) (u : Fin 1) (j : Fin 32) :
    val_main_v53 (F := Ideal) x8 (ix3 b u j) = x8 (ix2 (1 : Fin 2) j) := by
  rw [val_main_v53_apply, val_main_v52_apply, val_main_v51_apply, val_main_v50_apply]
  have hj := j.isLt
  have e : idx_main_v50 (idx_main_v51 (idx_main_v52 (idx_main_v53 (ix3 b u j)))) = ix2 (1 : Fin 2) j :=
    funext fun a => Fin.ext (by
      match a with
      | ⟨0, _⟩ => rfl
      | ⟨1, _⟩ => show j.val % 32 = j.val; omega)
  rw [e]

theorem v61_at (b : Fin 2048) (n : Fin 1024) (j : Fin 32) :
    val_main_v61 (F := Ideal) x10 (ix3 b n j) = x10 (ix2 (1 : Fin 2) j) := by
  rw [val_main_v61_apply, val_main_v60_apply, val_main_v59_apply, val_main_v58_apply]
  have hj := j.isLt
  have e : idx_main_v58 (idx_main_v59 (idx_main_v60 (idx_main_v61 (ix3 b n j)))) = ix2 (1 : Fin 2) j :=
    funext fun a => Fin.ext (by
      match a with
      | ⟨0, _⟩ => rfl
      | ⟨1, _⟩ => show j.val % 32 = j.val; omega)
  rw [e]

/-- The first layer's dense map of the row's average. -/
theorem v28_at (b : Fin 2048) (u : Fin 1) (j : Fin 32) :
    val_main_v28 (F := Ideal) x0 x1 x3 x4 x5 x6 x7 x8 (ix3 b u j)
      = proj (fun k j => x7 (ix3 (0 : Fin 2) k j)) (fun j => x8 (ix2 (0 : Fin 2) j)) (pooled (rowZ0 x0 x3 x4 x5 x6 b) (rowM x1 b)) j := by
  rw [val_main_v28_apply, val_main_v23_apply, v27_at]
  have e1 : ∀ k : Fin 32, lidx_main_v23 (ix3 b u j) k = ix3 b u k := fun k => by idx3
  have e2 : ∀ k : Fin 32, ridx_main_v23 (ix3 b u j) k = ix2 k j := fun k => by idx2
  simp only [e1, e2, v20_at, v22_at]
  rfl

/-- The first layer's gate of item `n`. -/
theorem v37_at (b : Fin 2048) (n : Fin 1024) (j : Fin 32) :
    val_main_v37 (F := Ideal) x0 x3 x4 x5 x6 x9 x10 (ix3 b n j)
      = gate (fun k j => x9 (ix3 (0 : Fin 2) k j)) (fun j => x10 (ix2 (0 : Fin 2) j)) (rowZ0 x0 x3 x4 x5 x6 b n) j := by
  rw [val_main_v37_apply, val_main_v36_apply, val_main_v31_apply, v35_at]
  have e1 : ∀ k : Fin 32, lidx_main_v31 (ix3 b n j) k = ix3 b n k := fun k => by idx3
  have e2 : ∀ k : Fin 32, ridx_main_v31 (ix3 b n j) k = ix2 k j := fun k => by idx2
  simp only [e1, e2, v8_at, v30_at]
  rfl

/-- Row `b` after the first residual layer. -/
theorem v40_at (b : Fin 2048) (n : Fin 1024) (j : Fin 32) :
    val_main_v40 (F := Ideal) x0 x1 x3 x4 x5 x6 x7 x8 x9 x10 (ix3 b n j) = rowZ1 x0 x1 x3 x4 x5 x6 x7 x8 x9 x10 b n j := by
  rw [val_main_v40_apply, val_main_v39_apply, val_main_v38_apply, v8_at, v37_at]
  have e : idx_main_v38 (ix3 b n j) = ix3 b (0 : Fin 1) j := by idx3
  rw [e, v28_at]
  rfl

/-- The average of the first layer's output over the present items of row `b`. -/
theorem v46_at (b : Fin 2048) (u : Fin 1) (j : Fin 32) :
    val_main_v46 (F := Ideal) x0 x1 x3 x4 x5 x6 x7 x8 x9 x10 (ix3 b u j)
      = pooled (rowZ1 x0 x1 x3 x4 x5 x6 x7 x8 x9 x10 b) (rowM x1 b) j := by
  rw [val_main_v46_apply, val_main_v44_apply, val_main_v45_apply, val_main_v43_apply, val_main_cst_2_apply]
  have e1 : idx_main_v45 (ix3 b u j) = ix3 b (0 : Fin 1) (0 : Fin 1) := by idx3
  have e2 : ∀ k : Fin 1024, idx_main_v43 (idx_main_v44 (ix3 b u j)) k = ix3 b k j := fun k => by idx3
  simp only [e1, e2, val_main_v42_apply, v40_at, v41_at, v14_at, Ideal.mulf_def, Ideal.ofBits_def,
    Ideal.ofBits_zero_f32, zero_add]
  rfl

/-- The second layer's dense map of the row's average. -/
theorem v54_at (b : Fin 2048) (u : Fin 1) (j : Fin 32) :
    val_main_v54 (F := Ideal) x0 x1 x3 x4 x5 x6 x7 x8 x9 x10 (ix3 b u j)
      = proj (fun k j => x7 (ix3 (1 : Fin 2) k j)) (fun j => x8 (ix2 (1 : Fin 2) j)) (pooled (rowZ1 x0 x1 x3 x4 x5 x6 x7 x8 x9 x10 b) (rowM x1 b)) j := by
  rw [val_main_v54_apply, val_main_v49_apply, v53_at]
  have e1 : ∀ k : Fin 32, lidx_main_v49 (ix3 b u j) k = ix3 b u k := fun k => by idx3
  have e2 : ∀ k : Fin 32, ridx_main_v49 (ix3 b u j) k = ix2 k j := fun k => by idx2
  simp only [e1, e2, v46_at, v48_at]
  rfl

/-- The second layer's gate of item `n`. -/
theorem v63_at (b : Fin 2048) (n : Fin 1024) (j : Fin 32) :
    val_main_v63 (F := Ideal) x0 x3 x4 x5 x6 x9 x10 (ix3 b n j)
      = gate (fun k j => x9 (ix3 (1 : Fin 2) k j)) (fun j => x10 (ix2 (1 : Fin 2) j)) (rowZ0 x0 x3 x4 x5 x6 b n) j := by
  rw [val_main_v63_apply, val_main_v62_apply, val_main_v57_apply, v61_at]
  have e1 : ∀ k : Fin 32, lidx_main_v57 (ix3 b n j) k = ix3 b n k := fun k => by idx3
  have e2 : ∀ k : Fin 32, ridx_main_v57 (ix3 b n j) k = ix2 k j := fun k => by idx2
  simp only [e1, e2, v8_at, v56_at]
  rfl

/-- Row `b` after the second residual layer. -/
theorem v66_at (b : Fin 2048) (n : Fin 1024) (j : Fin 32) :
    val_main_v66 (F := Ideal) x0 x1 x3 x4 x5 x6 x7 x8 x9 x10 (ix3 b n j) = rowZ2 x0 x1 x3 x4 x5 x6 x7 x8 x9 x10 b n j := by
  rw [val_main_v66_apply, val_main_v65_apply, val_main_v64_apply, v40_at, v63_at]
  have e : idx_main_v64 (ix3 b n j) = ix3 b (0 : Fin 1) j := by idx3
  rw [e, v54_at]
  rfl

/-- The head of item `n` of row `b`. -/
theorem v70_at (b : Fin 2048) (n : Fin 1024) :
    val_main_v70 (F := Ideal) x0 x1 x3 x4 x5 x6 x7 x8 x9 x10 x11 x12 (ix3 b n (0 : Fin 1))
      = head (fun k => x11 (ix2 k (0 : Fin 1))) (x12 (ix1 (0 : Fin 1))) (rowZ2 x0 x1 x3 x4 x5 x6 x7 x8 x9 x10 b n) := by
  rw [val_main_v70_apply, val_main_v67_apply, val_main_v69_apply, val_main_v68_apply]
  have e1 : ∀ k : Fin 32, lidx_main_v67 (ix3 b n (0 : Fin 1)) k = ix3 b n k := fun k => by idx3
  have e2 : ∀ k : Fin 32, ridx_main_v67 (ix3 b n (0 : Fin 1)) k = ix2 k (0 : Fin 1) := fun k => by idx2
  have e3 : idx_main_v68 (idx_main_v69 (ix3 b n (0 : Fin 1))) = ix1 (0 : Fin 1) := by idx1
  simp only [e1, e2, e3, v66_at]
  rfl

theorem v71_at (b : Fin 2048) (n : Fin 1024) :
    val_main_v71 (F := Ideal) x0 x1 x3 x4 x5 x6 x7 x8 x9 x10 x11 x12 (ix2 b n)
      = head (fun k => x11 (ix2 k (0 : Fin 1))) (x12 (ix1 (0 : Fin 1))) (rowZ2 x0 x1 x3 x4 x5 x6 x7 x8 x9 x10 b n) := by
  rw [val_main_v71_apply]
  have hb := b.isLt
  have hn := n.isLt
  have e : idx_main_v71 (ix2 b n) = ix3 b n (0 : Fin 1) :=
    funext fun a => Fin.ext (by
      match a with
      | ⟨0, _⟩ => show (b.val * 1024 + n.val) / 1024 = b.val; omega
      | ⟨1, _⟩ => show (b.val * 1024 + n.val) / 1 % 1024 = n.val; omega
      | ⟨2, _⟩ => rfl)
  rw [e, v70_at]

end Stages

/-- The reference's result at row `b`, item `n` is the row's score there, with the gathered offsets kept as they are. -/
theorem ref_apply
    (x0 : FVec Ideal S2048x1024x64 .f32) (x1 : IVec S2048x1024 32) (x2 : IVec S2048 32) (x3 : FVec Ideal S64x32 .f32) (x4 : FVec Ideal S32 .f32)
    (x5 : FVec Ideal S32x32 .f32) (x6 : FVec Ideal S32 .f32) (x7 : FVec Ideal S2x32x32 .f32) (x8 : FVec Ideal S2x32 .f32)
    (x9 : FVec Ideal S2x32x32 .f32) (x10 : FVec Ideal S2x32 .f32) (x11 : FVec Ideal S32x1 .f32) (x12 : FVec Ideal S1 .f32)
    (x13 : FVec Ideal S1000x1024 .f32) (b : Fin 2048) (n : Fin 1024) :
    val_main_v83 (F := Ideal) x0 x1 x2 x3 x4 x5 x6 x7 x8 x9 x10 x11 x12 x13 (ix2 b n)
      = rowOut (fun k j => x3 (ix2 k j)) (fun j => x4 (ix1 j)) (fun k j => x5 (ix2 k j)) (fun j => x6 (ix1 j))
          (fun k j => x7 (ix3 (0 : Fin 2) k j)) (fun j => x8 (ix2 (0 : Fin 2) j)) (fun k j => x7 (ix3 (1 : Fin 2) k j)) (fun j => x8 (ix2 (1 : Fin 2) j))
          (fun k j => x9 (ix3 (0 : Fin 2) k j)) (fun j => x10 (ix2 (0 : Fin 2) j)) (fun k j => x9 (ix3 (1 : Fin 2) k j)) (fun j => x10 (ix2 (1 : Fin 2) j))
          (fun k => x11 (ix2 k (0 : Fin 1))) (x12 (ix1 (0 : Fin 1)))
          (fun n' k => x0 (ix3 b n' k)) (fun n' => x1 (ix2 b n')) (fun n' => val_main_v78 (F := Ideal) x2 x13 (ix2 b n')) n := by
  rw [val_main_v83_apply, val_main_v82_apply, val_main_v81_apply, val_main_v80_apply, val_main_c_4_apply,
    val_main_v79_apply, val_main_call1_v0_apply, val_main_cst_5_apply, v71_at]
  rfl

end Cert.ReferenceIdeal.RefScore

end
-- ==== Proof.lean ====
/-
  The claim: a Pallas kernel that scores sets of items, sixteen batch rows per grid point, against its plain reference,
  equal over the extended reals.

  Both programs compute, for every batch row, the scores of `Cert.SetScore.rowOut` on that row alone (the row's
  embeddings through two dense layers, two residual layers driven by the average over the row's present items and a tanh
  gate, a one-output head, the gathered offset, and a large negative constant at absent items). The kernel's side
  (`Cert.KernelIdeal.Whole.run`): the body's stored value at an item is the row's score (KernelRows), the blocks it is
  handed are rows of the argument arrays and the whole weight arrays, with the two layers' gate weights joined side by
  side by the host beforehand (HostGlue), and the 128 blocks written back cover the result (KernelWhole). The
  reference's side (`Cert.ReferenceIdeal.RefScore.ref_apply`): each of its whole-array stages, read at a row, is the
  row's stage. A change of float format on the way into a product is the identity over the extended reals, the sums are
  taken over the same index sets in both programs, and no product is reordered, so nothing about the inputs' finiteness
  is used. The offsets are gathered by the same host operations in both programs and are carried as one array.
  The idealization rewrote nothing, so `preserves` is trivial; the kernels' frames are the generated ones and the
  reference's frame is its generated run with the result dropped.
-/
import proofs.«135003_j33045478375777_2_alg».proof.Defs
import proofs.«135003_j33045478375777_2_alg».proof.Proof.Gen.Kernel
import proofs.«135003_j33045478375777_2_alg».proof.Proof.Gen.Kernel.Skeleton
import proofs.«135003_j33045478375777_2_alg».proof.Proof.Gen.Kernel.Launch
import proofs.«135003_j33045478375777_2_alg».proof.Proof.Gen.Kernel.Points
import proofs.«135003_j33045478375777_2_alg».proof.Proof.Gen.Kernel.Frame
import proofs.«135003_j33045478375777_2_alg».proof.Proof.Gen.KernelIdeal
import proofs.«135003_j33045478375777_2_alg».proof.Proof.Gen.KernelIdeal.Skeleton
import proofs.«135003_j33045478375777_2_alg».proof.Proof.Gen.KernelIdeal.Launch
import proofs.«135003_j33045478375777_2_alg».proof.Proof.Gen.KernelIdeal.Points
import proofs.«135003_j33045478375777_2_alg».proof.Proof.Gen.KernelIdeal.Frame
import proofs.«135003_j33045478375777_2_alg».proof.Proof.Gen.ReferenceIdeal
import proofs.«135003_j33045478375777_2_alg».proof.Proof.Gen.Pre_finite_inputs
import proofs.«135003_j33045478375777_2_alg».proof.Proof.Gen.KernelIdeal.Value
import proofs.«135003_j33045478375777_2_alg».proof.Proof.Gen.ReferenceIdeal.Run
import proofs.«135003_j33045478375777_2_alg».proof.Proof.Gen.ReferenceIdeal.Read
import proofs.«135003_j33045478375777_2_alg».proof.Proof.ScoreArray
import proofs.«135003_j33045478375777_2_alg».proof.Proof.KernelWhole
import proofs.«135003_j33045478375777_2_alg».proof.Proof.RefScore
import Idealize.ShloMosaic.Lib.StableHlo.Run
import Idealize.ShloMosaic.Adequacy
import Idealize.ShloMosaic.Init

noncomputable section

namespace Cert.Proof

open Idealize.ShloMosaic Idealize.SL.Sem Idealize.ShloMosaic.TcCoe Idealize.ShloMosaic.ValueIdx Idealize.ShloMosaic.StableHlo
open Cert.SetScore

/-- The offsets the kernel's program gathers before the launch are the array the reference gathers: the same host
    operations on the same two arguments. -/
theorem offsets_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v16 : Cert.KernelIdeal.S2048x1024.Idx → EReal)
      = Cert.ReferenceIdeal.Read.val_main_v78 (F := Ideal) (m ((c : Thread Cert.KernelIdeal.nD Cert.KernelIdeal.τ).loc Cert.KernelIdeal.main_arg2))
          (m ((c : Thread Cert.KernelIdeal.nD Cert.KernelIdeal.τ).loc Cert.KernelIdeal.main_arg13)) := by
  dsimp only [Cert.KernelIdeal.Gen.V, Cert.KernelIdeal.Gen.hostOps0]
  after_results
  rfl

/-- The reference's result is the array of all scores: row by row, item by item. -/
theorem ref_scores
    (x0 : FVec Ideal Cert.ReferenceIdeal.S2048x1024x64 .f32) (x1 : IVec Cert.ReferenceIdeal.S2048x1024 32) (x2 : IVec Cert.ReferenceIdeal.S2048 32)
    (x3 : FVec Ideal Cert.ReferenceIdeal.S64x32 .f32) (x4 : FVec Ideal Cert.ReferenceIdeal.S32 .f32) (x5 : FVec Ideal Cert.ReferenceIdeal.S32x32 .f32)
    (x6 : FVec Ideal Cert.ReferenceIdeal.S32 .f32) (x7 : FVec Ideal Cert.ReferenceIdeal.S2x32x32 .f32) (x8 : FVec Ideal Cert.ReferenceIdeal.S2x32 .f32)
    (x9 : FVec Ideal Cert.ReferenceIdeal.S2x32x32 .f32) (x10 : FVec Ideal Cert.ReferenceIdeal.S2x32 .f32) (x11 : FVec Ideal Cert.ReferenceIdeal.S32x1 .f32)
    (x12 : FVec Ideal Cert.ReferenceIdeal.S1 .f32) (x13 : FVec Ideal Cert.ReferenceIdeal.S1000x1024 .f32) :
    Cert.ReferenceIdeal.Read.val_main_v83 (F := Ideal) x0 x1 x2 x3 x4 x5 x6 x7 x8 x9 x10 x11 x12 x13
      = scores x0 x1 x3 x4 x5 x6 x7 x8 x9 x10 x11 x12 (Cert.ReferenceIdeal.Read.val_main_v78 (F := Ideal) x2 x13) := by
  funext i
  obtain ⟨b, n, rfl⟩ : ∃ (b : Fin 2048) (n : Fin 1024), i = ix2 b n := ⟨i 0, i 1, eq_ix2 i⟩
  rw [Cert.ReferenceIdeal.RefScore.ref_apply, scores_apply]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array and the reference's are the same array of scores of the
    arguments, which agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v83_eq, ref_scores, a0, a1, a2, a3, a4, a5, a6, a7, a8, a9, a10, a11, a12, a13]
  show _ = Cert.KernelIdeal.Whole.result m c
  unfold Cert.KernelIdeal.Whole.result
  rw [offsets_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
